-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x16000000 : Shape := ⟨2, ![2, 16000000]⟩
abbrev S3x4 : Shape := ⟨2, ![3, 4]⟩
abbrev S4 : Shape := ⟨1, ![4]⟩
abbrev S4x2 : Shape := ⟨2, ![4, 2]⟩
abbrev S2 : Shape := ⟨1, ![2]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3x4 : S_.BroadcastsInDim S3x4 (![] : Fin 0 → Fin S3x4.rank)
  reducesTo_S3x4_S_d0_1 : S3x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x3 .f32) (main_arg1 : IVec S2x16000000 32) (main_arg2 : FVec F S3x4 .f32) (main_arg3 : FVec F S4 .f32) (main_arg4 : FVec F S4x2 .f32) (main_arg5 : FVec F S2 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S3x4 .f32 := Host.absf main_arg2
  let main_cst_0 : FVec F S_ .f32 := constant S_ .f32 0x7F800000#32
  let main_v5 : FVec F S3x4 .f32 := broadcastInDim S3x4 ![] bcast_S_S3x4 main_cst_0
  let main_v6 : IVec S3x4 1 := cmpf .olt main_v4 main_v5
  let main_c_1 : IVec S_ 1 := constantI S_ 1 1#1
  let main_v7 : IVec S_ 1 := (fun x v => Host.reduce IntOp.andi x v reducesTo_S3x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x2 .f32 := Host.absf main_arg4
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg5 main_v13 main_v16
-- ==== Kernel.lean ====
abbrev S1000000x3 : Shape := ⟨2, ![1000000, 3]⟩
abbrev S2x16000000 : Shape := ⟨2, ![2, 16000000]⟩
abbrev S3x4 : Shape := ⟨2, ![3, 4]⟩
abbrev S4 : Shape := ⟨1, ![4]⟩
abbrev S4x2 : Shape := ⟨2, ![4, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S1000000x4 : Shape := ⟨2, ![1000000, 4]⟩
abbrev S8000x3 : Shape := ⟨2, ![8000, 3]⟩
abbrev S8000x4 : Shape := ⟨2, ![8000, 4]⟩
abbrev S16000000x4 : Shape := ⟨2, ![16000000, 4]⟩
abbrev S1000000x1 : Shape := ⟨2, ![1000000, 1]⟩
abbrev S1x4 : Shape := ⟨2, ![1, 4]⟩
abbrev S8000x1 : Shape := ⟨2, ![8000, 1]⟩
abbrev S1000000x2 : Shape := ⟨2, ![1000000, 2]⟩
abbrev S8000x2 : Shape := ⟨2, ![8000, 2]⟩
abbrev S16000000x2 : Shape := ⟨2, ![16000000, 2]⟩
abbrev S1x2 : Shape := ⟨2, ![1, 2]⟩
abbrev S8000 : Shape := ⟨1, ![8000]⟩

abbrev nBuf : Space → Nat
  | .hbm => 101
  | .vmem => 28
  | .smem => 0
  | _ => 0

abbrev bufTy : (tb : Table) → Fin (tcTables nBuf tb) → BufTy
  | .hbm, ⟨0, _⟩ => ⟨S1000000x3, .f32⟩
  | .hbm, ⟨1, _⟩ => ⟨S2x16000000, .i32⟩
  | .hbm, ⟨2, _⟩ => ⟨S3x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S_, .f32⟩
  | .hbm, ⟨11, _⟩ => ⟨S16000000, .f32⟩
  | .hbm, ⟨12, _⟩ => ⟨S_, .f32⟩
  | .hbm, ⟨13, _⟩ => ⟨S1000000, .f32⟩
  | .hbm, ⟨14, _⟩ => ⟨S16000000x1, .i32⟩
  | .hbm, ⟨15, _⟩ => ⟨S1000000, .f32⟩
  | .hbm, ⟨16, _⟩ => ⟨S_, .f32⟩
  | .hbm, ⟨17, _⟩ => ⟨S1000000, .f32⟩
  | .hbm, ⟨18, _⟩ => ⟨S1000000, .f32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .f32⟩
  | .hbm, ⟨23, _⟩ => ⟨S1000000x4, .f32⟩
  | .hbm, ⟨24, _⟩ => ⟨S_, .i32⟩
  | .hbm, ⟨25, _⟩ => ⟨S16000000, .i32⟩
  | .hbm, ⟨26, _⟩ => ⟨S16000000, .i1⟩
  | .hbm, ⟨27, _⟩ => ⟨S_, .i32⟩
  | .hbm, ⟨28, _⟩ => ⟨S16000000, .i32⟩
  | .hbm, ⟨29, _⟩ => ⟨S16000000, .i32⟩
  | .hbm, ⟨30, _⟩ => ⟨S16000000, .i32⟩
  | .hbm, ⟨31, _⟩ => ⟨S16000000x1, .i32⟩
  | .hbm, ⟨32, _⟩ => ⟨S16000000, .f32⟩
  | .hbm, ⟨33, _⟩ => ⟨S_, .i32⟩
  | .hbm, ⟨34, _⟩ => ⟨S16000000, .i32⟩
  | .hbm, ⟨35, _⟩ => ⟨S16000000, .i1⟩
  | .hbm, ⟨36, _⟩ => ⟨S_, .i32⟩
  | .hbm, ⟨37, _⟩ => ⟨S16000000, .i32⟩
  | .hbm, ⟨38, _⟩ => ⟨S16000000, .i32⟩
  | .hbm, ⟨39, _⟩ => ⟨S16000000, .i32⟩
  | .hbm, ⟨40, _⟩ => ⟨S16000000x1, .i32⟩
  | .hbm, ⟨41, _⟩ => ⟨S16000000, .f32⟩
  | .hbm, ⟨42, _⟩ => ⟨S16000000, .f32⟩
  | .hbm, ⟨43, _⟩ => ⟨S_, .i32⟩
  | .hbm, ⟨44, _⟩ => ⟨S16000000, .i32⟩
  | .hbm, ⟨45, _⟩ => ⟨S16000000, .i1⟩
  | .hbm, ⟨46, _⟩ => ⟨S_, .i32⟩
  | .hbm, ⟨47, _⟩ => ⟨S16000000, .i32⟩
  | .hbm, ⟨48, _⟩ => ⟨S16000000, .i32⟩
  | .hbm, ⟨49, _⟩ => ⟨S16000000, .i32⟩
  | .hbm, ⟨50, _⟩ => ⟨S16000000x1, .i32⟩
  | .hbm, ⟨51, _⟩ => ⟨S16000000x4, .f32⟩
  | .hbm, ⟨52, _⟩ => ⟨S16000000x1, .f32⟩
  | .hbm, ⟨53, _⟩ => ⟨S16000000x4, .f32⟩
  | .hbm, ⟨54, _⟩ => ⟨S16000000x4, .f32⟩
  | .hbm, ⟨55, _⟩ => ⟨S_, .f32⟩
  | .hbm, ⟨56, _⟩ => ⟨S1000000x4, .f32⟩
  | .hbm, ⟨57, _⟩ => ⟨S16000000x1, .i32⟩
  | .hbm, ⟨58, _⟩ => ⟨S1000000x4, .f32⟩
  | .hbm, ⟨59, _⟩ => ⟨S1000000x1, .f32⟩
  | .hbm, ⟨60, _⟩ => ⟨S1x4, .f32⟩
  | .hbm, ⟨61, _⟩ => ⟨S1000000x4, .f32⟩
  | .hbm, ⟨62, _⟩ => ⟨S1000000x2, .f32⟩
  | .hbm, ⟨63, _⟩ => ⟨S_, .i32⟩
  | .hbm, ⟨64, _⟩ => ⟨S16000000, .i32⟩
  | .hbm, ⟨65, _⟩ => ⟨S16000000, .i1⟩
  | .hbm, ⟨66, _⟩ => ⟨S_, .i32⟩
  | .hbm, ⟨67, _⟩ => ⟨S16000000, .i32⟩
  | .hbm, ⟨68, _⟩ => ⟨S16000000, .i32⟩
  | .hbm, ⟨69, _⟩ => ⟨S16000000, .i32⟩
  | .hbm, ⟨70, _⟩ => ⟨S16000000x1, .i32⟩
  | .hbm, ⟨71, _⟩ => ⟨S16000000, .f32⟩
  | .hbm, ⟨72, _⟩ => ⟨S_, .i32⟩
  | .hbm, ⟨73, _⟩ => ⟨S16000000, .i32⟩
  | .hbm, ⟨74, _⟩ => ⟨S16000000, .i1⟩
  | .hbm, ⟨75, _⟩ => ⟨S_, .i32⟩
  | .hbm, ⟨76, _⟩ => ⟨S16000000, .i32⟩
  | .hbm, ⟨77, _⟩ => ⟨S16000000, .i32⟩
  | .hbm, ⟨78, _⟩ => ⟨S16000000, .i32⟩
  | .hbm, ⟨79, _⟩ => ⟨S16000000x1, .i32⟩
  | .hbm, ⟨80, _⟩ => ⟨S16000000, .f32⟩
  | .hbm, ⟨81, _⟩ => ⟨S16000000, .f32⟩
  | .hbm, ⟨82, _⟩ => ⟨S_, .i32⟩
  | .hbm, ⟨83, _⟩ => ⟨S16000000, .i32⟩
  | .hbm, ⟨84, _⟩ => ⟨S16000000, .i1⟩
  | .hbm, ⟨85, _⟩ => ⟨S_, .i32⟩
  | .hbm, ⟨86, _⟩ => ⟨S16000000, .i32⟩
  | .hbm, ⟨87, _⟩ => ⟨S16000000, .i32⟩
  | .hbm, ⟨88, _⟩ => ⟨S16000000, .i32⟩
  | .hbm, ⟨89, _⟩ => ⟨S16000000x1, .i32⟩
  | .hbm, ⟨90, _⟩ => ⟨S16000000x2, .f32⟩
  | .hbm, ⟨91, _⟩ => ⟨S16000000x1, .f32⟩
  | .hbm, ⟨92, _⟩ => ⟨S16000000x2, .f32⟩
  | .hbm, ⟨93, _⟩ => ⟨S16000000x2, .f32⟩
  | .hbm, ⟨94, _⟩ => ⟨S_, .f32⟩
  | .hbm, ⟨95, _⟩ => ⟨S1000000x2, .f32⟩
  | .hbm, ⟨96, _⟩ => ⟨S16000000x1, .i32⟩
  | .hbm, ⟨97, _⟩ => ⟨S1000000x2, .f32⟩
  | .hbm, ⟨98, _⟩ => ⟨S1000000x1, .f32⟩
  | .hbm, ⟨99, _⟩ => ⟨S1x2, .f32⟩
  | .hbm, ⟨100, _⟩ => ⟨S1000000x2, .f32⟩
  | .local _ .vmem, ⟨0, _⟩ => ⟨S8000x3, .f32⟩
  | .local _ .vmem, ⟨1, _⟩ => ⟨S8000x3, .f32⟩
  | .local _ .vmem, ⟨2, _⟩ => ⟨S3x4, .f32⟩
  | .local _ .vmem, ⟨3, _⟩ => ⟨S8000x4, .f32⟩
  | .local _ .vmem, ⟨4, _⟩ => ⟨S8000x4, .f32⟩
  | .local _ .vmem, ⟨5, _⟩ => ⟨S8000x4, .f32⟩
  | .local _ .vmem, ⟨6, _⟩ => ⟨S8000x4, .f32⟩
  | .local _ .vmem, ⟨7, _⟩ => ⟨S8000x4, .f32⟩
  | .local _ .vmem, ⟨8, _⟩ => ⟨S8000x4, .f32⟩
  | .local _ .vmem, ⟨9, _⟩ => ⟨S8000x1, .f32⟩
  | .local _ .vmem, ⟨10, _⟩ => ⟨S8000x1, .f32⟩
  | .local _ .vmem, ⟨11, _⟩ => ⟨S1x4, .f32⟩
  | .local _ .vmem, ⟨12, _⟩ => ⟨S8000x4, .f32⟩
  | .local _ .vmem, ⟨13, _⟩ => ⟨S8000x4, .f32⟩
  | .local _ .vmem, ⟨14, _⟩ => ⟨S8000x4, .f32⟩
  | .local _ .vmem, ⟨15, _⟩ => ⟨S8000x4, .f32⟩
  | .local _ .vmem, ⟨16, _⟩ => ⟨S4x2, .f32⟩
  | .local _ .vmem, ⟨17, _⟩ => ⟨S8000x2, .f32⟩
  | .local _ .vmem, ⟨18, _⟩ => ⟨S8000x2, .f32⟩
  | .local _ .vmem, ⟨19, _⟩ => ⟨S8000x2, .f32⟩
  | .local _ .vmem, ⟨20, _⟩ => ⟨S8000x2, .f32⟩
  | .local _ .vmem, ⟨21, _⟩ => ⟨S8000x2, .f32⟩
  | .local _ .vmem, ⟨22, _⟩ => ⟨S8000x2, .f32⟩
  | .local _ .vmem, ⟨23, _⟩ => ⟨S8000x1, .f32⟩
  | .local _ .vmem, ⟨24, _⟩ => ⟨S8000x1, .f32⟩
  | .local _ .vmem, ⟨25, _⟩ => ⟨S1x2, .f32⟩
  | .local _ .vmem, ⟨26, _⟩ => ⟨S8000x2, .f32⟩
  | .local _ .vmem, ⟨27, _⟩ => ⟨S8000x2, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  inb_S8000x3_S8000x3_0_0 : ∀ a, (![0, 0] : Fin 2 → Nat) a + S8000x3.size a ≤ S8000x3.size a
  h_S8000x3 : 0 < S8000x3.numel
  bitsLt_bf16_f32 : FTy.bits .bf16 < FTy.bits .f32
  inb_S3x4_S3x4_0_0 : ∀ a, (![0, 0] : Fin 2 → Nat) a + S3x4.size a ≤ S3x4.size a
  h_S3x4 : 0 < S3x4.numel
  inb_S8000x4_S8000x4_0_0 : ∀ a, (![0, 0] : Fin 2 → Nat) a + S8000x4.size a ≤ S8000x4.size a
  h_S8000x4 : 0 < S8000x4.numel
  bcast_S16000000x1_S16000000x4_0_1 : S16000000x1.BroadcastsInDim S16000000x4 (![0, 1] : Fin 2 → Fin S16000000x4.rank)
  bcast_S_S1000000x4 : S_.BroadcastsInDim S1000000x4 (![] : Fin 0 → Fin S1000000x4.rank)
  shapeCasts_S1000000_S1000000x1 : S1000000.ShapeCasts S1000000x1
  shapeCasts_S4_S1x4 : S4.ShapeCasts S1x4
  shapeCasts_S8000x4_S8000x4 : S8000x4.ShapeCasts S8000x4
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S8000x1_S8000x4 : S8000x1.Broadcasts S8000x4
  broadcasts_S1x4_S8000x4 : S1x4.Broadcasts S8000x4
  inb_S4x2_S4x2_0_0 : ∀ a, (![0, 0] : Fin 2 → Nat) a + S4x2.size a ≤ S4x2.size a
  h_S4x2 : 0 < S4x2.numel
  inb_S8000x2_S8000x2_0_0 : ∀ a, (![0, 0] : Fin 2 → Nat) a + S8000x2.size a ≤ S8000x2.size a
  h_S8000x2 : 0 < S8000x2.numel
  bcast_S16000000x1_S16000000x2_0_1 : S16000000x1.BroadcastsInDim S16000000x2 (![0, 1] : Fin 2 → Fin S16000000x2.rank)
  bcast_S_S1000000x2 : S_.BroadcastsInDim S1000000x2 (![] : Fin 0 → Fin S1000000x2.rank)
  shapeCasts_S2_S1x2 : S2.ShapeCasts S1x2
  shapeCasts_S8000x2_S8000x2 : S8000x2.ShapeCasts S8000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S8000x1_S8000x2 : S8000x1.Broadcasts S8000x2
  broadcasts_S1x2_S8000x2 : S1x2.Broadcasts S8000x2
  reduces_S8000x2_S8000 : S8000x2.Reduces [1] S8000
  shapeCasts_S8000_S8000x1 : S8000.ShapeCasts S8000x1
  scatter_S1000000_S16000000x1_S16000000_n_0_0_1_wf : ScatterDims.WF S1000000 S16000000x1 S16000000 [] [0] [0] 1
  dot_S8000x3_S3x4_S8000x4_1_0_0_1_n_n_wf : DotDims.WF S8000x3 S3x4 S8000x4 [1] [0] [0] [1] [] []
  gather_S1000000_S16000000x1_S16000000_n_0_n_n_0_1_1_wf : GatherDims.WF S1000000 S16000000x1 S16000000 [] [0] [] [0] [] 1 ![1]
  gather_S1000000x4_S16000000x1_S16000000x4_1_0_n_n_0_1_14_wf : GatherDims.WF S1000000x4 S16000000x1 S16000000x4 [1] [0] [] [0] [] 1 ![1, 4]
  scatter_S1000000x4_S16000000x1_S16000000x4_1_0_0_1_wf : ScatterDims.WF S1000000x4 S16000000x1 S16000000x4 [1] [0] [0] 1
  dot_S8000x4_S4x2_S8000x2_1_0_0_1_n_n_wf : DotDims.WF S8000x4 S4x2 S8000x2 [1] [0] [0] [1] [] []
  gather_S1000000x2_S16000000x1_S16000000x2_1_0_n_n_0_1_12_wf : GatherDims.WF S1000000x2 S16000000x1 S16000000x2 [1] [0] [] [0] [] 1 ![1, 2]
  scatter_S1000000x2_S16000000x1_S16000000x2_1_0_0_1_wf : ScatterDims.WF S1000000x2 S16000000x1 S16000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1000000x3.size a
  hwx0_0 : ∀ i : grid0.Coords, EltTy.bits .f32 = 32 ∨ (Rect.block (s := S1000000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4.size a ≤ S3x4.size a
  hwx0_1 : ∀ i : grid0.Coords, EltTy.bits .f32 = 32 ∨ (Rect.block (s := S3x4) S3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x4.size a ≤ S1000000x4.size a
  hwx0_2 : ∀ i : grid0.Coords, EltTy.bits .f32 = 32 ∨ (Rect.block (s := S1000000x4) S8000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x4.size a ≤ S1000000x4.size a
  hwx1_0 : ∀ i : grid1.Coords, EltTy.bits .f32 = 32 ∨ (Rect.block (s := S1000000x4) S8000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1000000x4.size a
  hwx1_1 : ∀ i : grid1.Coords, EltTy.bits .f32 = 32 ∨ (Rect.block (s := S1000000x4) S8000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S1000000x1.size a
  hwx1_2 : ∀ i : grid1.Coords, EltTy.bits .f32 = 32 ∨ (Rect.block (s := S1000000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x4.size a ≤ S1000000x4.size a
  hwx1_4 : ∀ i : grid1.Coords, EltTy.bits .f32 = 32 ∨ (Rect.block (s := S1000000x4) S8000x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x4.size a ≤ S1000000x4.size a
  hwx2_0 : ∀ i : grid2.Coords, EltTy.bits .f32 = 32 ∨ (Rect.block (s := S1000000x4) S8000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2.size a ≤ S4x2.size a
  hwx2_1 : ∀ i : grid2.Coords, EltTy.bits .f32 = 32 ∨ (Rect.block (s := S4x2) S4x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x2.size a ≤ S1000000x2.size a
  hwx2_2 : ∀ i : grid2.Coords, EltTy.bits .f32 = 32 ∨ (Rect.block (s := S1000000x2) S8000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x2.size a ≤ S1000000x2.size a
  hwx3_0 : ∀ i : grid3.Coords, EltTy.bits .f32 = 32 ∨ (Rect.block (s := S1000000x2) S8000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x2.size a ≤ S1000000x2.size a
  hwx3_1 : ∀ i : grid3.Coords, EltTy.bits .f32 = 32 ∨ (Rect.block (s := S1000000x2) S8000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S1000000x1.size a
  hwx3_2 : ∀ i : grid3.Coords, EltTy.bits .f32 = 32 ∨ (Rect.block (s := S1000000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x2.size a ≤ S1000000x2.size a
  hwx3_4 : ∀ i : grid3.Coords, EltTy.bits .f32 = 32 ∨ (Rect.block (s := S1000000x2) S8000x2.size (cc3_transform_4 i) (hinb3_4 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def dot_S8000x3_S3x4_S8000x4_1_0_0_1_n_n : DotDims S8000x3 S3x4 S8000x4 where
  lhsContracting := [1]
  rhsContracting := [0]
  lhsNonContracting := [0]
  rhsNonContracting := [1]
  lhsBatch := []
  rhsBatch := []
  wf := dot_S8000x3_S3x4_S8000x4_1_0_0_1_n_n_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf
def dot_S8000x4_S4x2_S8000x2_1_0_0_1_n_n : DotDims S8000x4 S4x2 S8000x2 where
  lhsContracting := [1]
  rhsContracting := [0]
  lhsNonContracting := [0]
  rhsNonContracting := [1]
  lhsBatch := []
  rhsBatch := []
  wf := dot_S8000x4_S4x2_S8000x2_1_0_0_1_n_n_wf
def gather_S1000000x2_S16000000x1_S16000000x2_1_0_n_n_0_1_12 : GatherDims S1000000x2 S16000000x1 S16000000x2 where
  offsetDims := [1]
  collapsedSliceDims := [0]
  operandBatchingDims := []
  startIndicesBatchingDims := []
  startIndexMap := [0]
  indexVectorDim := 1
  sliceSizes := ![1, 2]
  wf := gather_S1000000x2_S16000000x1_S16000000x2_1_0_n_n_0_1_12_wf
def scatter_S1000000x2_S16000000x1_S16000000x2_1_0_0_1 : ScatterDims S1000000x2 S16000000x1 S16000000x2 where
  updateWindowDims := [1]
  insertedWindowDims := [0]
  scatterDimsToOperandDims := [0]
  indexVectorDim := 1
  wf := scatter_S1000000x2_S16000000x1_S16000000x2_1_0_0_1_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S8000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S8000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S8000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S8000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S8000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S8000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S1000000x3 : Shape := ⟨2, ![1000000, 3]⟩
abbrev S2x16000000 : Shape := ⟨2, ![2, 16000000]⟩
abbrev S3x4 : Shape := ⟨2, ![3, 4]⟩
abbrev S4 : Shape := ⟨1, ![4]⟩
abbrev S4x2 : Shape := ⟨2, ![4, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S1000000x4 : Shape := ⟨2, ![1000000, 4]⟩
abbrev S16000000x4 : Shape := ⟨2, ![16000000, 4]⟩
abbrev S1000000x1 : Shape := ⟨2, ![1000000, 1]⟩
abbrev S1x4 : Shape := ⟨2, ![1, 4]⟩
abbrev S1000000x2 : Shape := ⟨2, ![1000000, 2]⟩
abbrev S16000000x2 : Shape := ⟨2, ![16000000, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2x16000000, .i32⟩
  | .hbm, ⟨2, _⟩ => ⟨S3x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S_, .f32⟩
  | .hbm, ⟨11, _⟩ => ⟨S16000000, .f32⟩
  | .hbm, ⟨12, _⟩ => ⟨S_, .f32⟩
  | .hbm, ⟨13, _⟩ => ⟨S1000000, .f32⟩
  | .hbm, ⟨14, _⟩ => ⟨S16000000x1, .i32⟩
  | .hbm, ⟨15, _⟩ => ⟨S1000000, .f32⟩
  | .hbm, ⟨16, _⟩ => ⟨S_, .f32⟩
  | .hbm, ⟨17, _⟩ => ⟨S1000000, .f32⟩
  | .hbm, ⟨18, _⟩ => ⟨S1000000, .f32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .f32⟩
  | .hbm, ⟨23, _⟩ => ⟨S1000000x4, .f32⟩
  | .hbm, ⟨24, _⟩ => ⟨S_, .i32⟩
  | .hbm, ⟨25, _⟩ => ⟨S16000000, .i32⟩
  | .hbm, ⟨26, _⟩ => ⟨S16000000, .i1⟩
  | .hbm, ⟨27, _⟩ => ⟨S_, .i32⟩
  | .hbm, ⟨28, _⟩ => ⟨S16000000, .i32⟩
  | .hbm, ⟨29, _⟩ => ⟨S16000000, .i32⟩
  | .hbm, ⟨30, _⟩ => ⟨S16000000, .i32⟩
  | .hbm, ⟨31, _⟩ => ⟨S16000000x1, .i32⟩
  | .hbm, ⟨32, _⟩ => ⟨S16000000, .f32⟩
  | .hbm, ⟨33, _⟩ => ⟨S_, .i32⟩
  | .hbm, ⟨34, _⟩ => ⟨S16000000, .i32⟩
  | .hbm, ⟨35, _⟩ => ⟨S16000000, .i1⟩
  | .hbm, ⟨36, _⟩ => ⟨S_, .i32⟩
  | .hbm, ⟨37, _⟩ => ⟨S16000000, .i32⟩
  | .hbm, ⟨38, _⟩ => ⟨S16000000, .i32⟩
  | .hbm, ⟨39, _⟩ => ⟨S16000000, .i32⟩
  | .hbm, ⟨40, _⟩ => ⟨S16000000x1, .i32⟩
  | .hbm, ⟨41, _⟩ => ⟨S16000000, .f32⟩
  | .hbm, ⟨42, _⟩ => ⟨S16000000, .f32⟩
  | .hbm, ⟨43, _⟩ => ⟨S16000000x1, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S16000000x4, .f32⟩
  | .hbm, ⟨53, _⟩ => ⟨S16000000x4, .f32⟩
  | .hbm, ⟨54, _⟩ => ⟨S16000000x4, .f32⟩
  | .hbm, ⟨55, _⟩ => ⟨S_, .f32⟩
  | .hbm, ⟨56, _⟩ => ⟨S1000000x4, .f32⟩
  | .hbm, ⟨57, _⟩ => ⟨S16000000x1, .i32⟩
  | .hbm, ⟨58, _⟩ => ⟨S1000000x4, .f32⟩
  | .hbm, ⟨59, _⟩ => ⟨S1000000x1, .f32⟩
  | .hbm, ⟨60, _⟩ => ⟨S1000000x4, .f32⟩
  | .hbm, ⟨61, _⟩ => ⟨S1000000x4, .f32⟩
  | .hbm, ⟨62, _⟩ => ⟨S1000000x4, .f32⟩
  | .hbm, ⟨63, _⟩ => ⟨S1x4, .f32⟩
  | .hbm, ⟨64, _⟩ => ⟨S1000000x4, .f32⟩
  | .hbm, ⟨65, _⟩ => ⟨S1000000x4, .f32⟩
  | .hbm, ⟨66, _⟩ => ⟨S_, .f32⟩
  | .hbm, ⟨67, _⟩ => ⟨S1000000x4, .f32⟩
  | .hbm, ⟨68, _⟩ => ⟨S1000000x4, .f32⟩
  | .hbm, ⟨69, _⟩ => ⟨S1000000x2, .f32⟩
  | .hbm, ⟨70, _⟩ => ⟨S_, .i32⟩
  | .hbm, ⟨71, _⟩ => ⟨S16000000, .i32⟩
  | .hbm, ⟨72, _⟩ => ⟨S16000000, .i1⟩
  | .hbm, ⟨73, _⟩ => ⟨S_, .i32⟩
  | .hbm, ⟨74, _⟩ => ⟨S16000000, .i32⟩
  | .hbm, ⟨75, _⟩ => ⟨S16000000, .i32⟩
  | .hbm, ⟨76, _⟩ => ⟨S16000000, .i32⟩
  | .hbm, ⟨77, _⟩ => ⟨S16000000x1, .i32⟩
  | .hbm, ⟨78, _⟩ => ⟨S16000000, .f32⟩
  | .hbm, ⟨79, _⟩ => ⟨S_, .i32⟩
  | .hbm, ⟨80, _⟩ => ⟨S16000000, .i32⟩
  | .hbm, ⟨81, _⟩ => ⟨S16000000, .i1⟩
  | .hbm, ⟨82, _⟩ => ⟨S_, .i32⟩
  | .hbm, ⟨83, _⟩ => ⟨S16000000, .i32⟩
  | .hbm, ⟨84, _⟩ => ⟨S16000000, .i32⟩
  | .hbm, ⟨85, _⟩ => ⟨S16000000, .i32⟩
  | .hbm, ⟨86, _⟩ => ⟨S16000000x1, .i32⟩
  | .hbm, ⟨87, _⟩ => ⟨S16000000, .f32⟩
  | .hbm, ⟨88, _⟩ => ⟨S16000000, .f32⟩
  | .hbm, ⟨89, _⟩ => ⟨S16000000x1, .f32⟩
  | .hbm, ⟨90, _⟩ => ⟨S_, .i32⟩
  | .hbm, ⟨91, _⟩ => ⟨S16000000, .i32⟩
  | .hbm, ⟨92, _⟩ => ⟨S16000000, .i1⟩
  | .hbm, ⟨93, _⟩ => ⟨S_, .i32⟩
  | .hbm, ⟨94, _⟩ => ⟨S16000000, .i32⟩
  | .hbm, ⟨95, _⟩ => ⟨S16000000, .i32⟩
  | .hbm, ⟨96, _⟩ => ⟨S16000000, .i32⟩
  | .hbm, ⟨97, _⟩ => ⟨S16000000x1, .i32⟩
  | .hbm, ⟨98, _⟩ => ⟨S16000000x2, .f32⟩
  | .hbm, ⟨99, _⟩ => ⟨S16000000x2, .f32⟩
  | .hbm, ⟨100, _⟩ => ⟨S16000000x2, .f32⟩
  | .hbm, ⟨101, _⟩ => ⟨S_, .f32⟩
  | .hbm, ⟨102, _⟩ => ⟨S1000000x2, .f32⟩
  | .hbm, ⟨103, _⟩ => ⟨S16000000x1, .i32⟩
  | .hbm, ⟨104, _⟩ => ⟨S1000000x2, .f32⟩
  | .hbm, ⟨105, _⟩ => ⟨S1000000x1, .f32⟩
  | .hbm, ⟨106, _⟩ => ⟨S1000000x2, .f32⟩
  | .hbm, ⟨107, _⟩ => ⟨S1000000x2, .f32⟩
  | .hbm, ⟨108, _⟩ => ⟨S1000000x2, .f32⟩
  | .hbm, ⟨109, _⟩ => ⟨S1x2, .f32⟩
  | .hbm, ⟨110, _⟩ => ⟨S1000000x2, .f32⟩
  | .hbm, ⟨111, _⟩ => ⟨S1000000x2, .f32⟩
  | .hbm, ⟨112, _⟩ => ⟨S_, .f32⟩
  | .hbm, ⟨113, _⟩ => ⟨S1000000, .f32⟩
  | .hbm, ⟨114, _⟩ => ⟨S_, .f32⟩
  | .hbm, ⟨115, _⟩ => ⟨S1000000, .f32⟩
  | .hbm, ⟨116, _⟩ => ⟨S1000000, .f32⟩
  | .hbm, ⟨117, _⟩ => ⟨S1000000x1, .f32⟩
  | .hbm, ⟨118, _⟩ => ⟨S1000000x2, .f32⟩
  | .hbm, ⟨119, _⟩ => ⟨S1000000x2, .f32⟩
  | .hbm, ⟨120, _⟩ => ⟨S1000000x2, .f32⟩
  | .hbm, ⟨121, _⟩ => ⟨S_, .f32⟩
  | .hbm, ⟨122, _⟩ => ⟨S1000000, .f32⟩
  | .hbm, ⟨123, _⟩ => ⟨S1000000x1, .f32⟩
  | .hbm, ⟨124, _⟩ => ⟨S1000000x1, .f32⟩
  | .hbm, ⟨125, _⟩ => ⟨S1000000x2, .f32⟩
  | .hbm, ⟨126, _⟩ => ⟨S1000000x2, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call1_cst : Ref sig .tc := ⟨.hbm, 112, rfl⟩
abbrev main_call1_v0 : Ref sig .tc := ⟨.hbm, 113, rfl⟩
abbrev main_call1_cst_0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_cst_1 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_v86 : Ref sig .tc := ⟨.hbm, 126, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S16000000x1_S16000000x4_0_1 : S16000000x1.BroadcastsInDim S16000000x4 (![0, 1] : Fin 2 → Fin S16000000x4.rank)
  bcast_S_S1000000x4 : S_.BroadcastsInDim S1000000x4 (![] : Fin 0 → Fin S1000000x4.rank)
  bcast_S1000000_S1000000x1_0 : S1000000.BroadcastsInDim S1000000x1 (![0] : Fin 1 → Fin S1000000x1.rank)
  bcast_S1000000x1_S1000000x4_0_1 : S1000000x1.BroadcastsInDim S1000000x4 (![0, 1] : Fin 2 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S16000000x1_S16000000x2_0_1 : S16000000x1.BroadcastsInDim S16000000x2 (![0, 1] : Fin 2 → Fin S16000000x2.rank)
  bcast_S_S1000000x2 : S_.BroadcastsInDim S1000000x2 (![] : Fin 0 → Fin S1000000x2.rank)
  bcast_S1000000x1_S1000000x2_0_1 : S1000000x1.BroadcastsInDim S1000000x2 (![0, 1] : Fin 2 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S1000000_d1 : S1000000x2.ReducesTo [1] S1000000
  h_S_ : 0 < S_.numel
  scatter_S1000000_S16000000x1_S16000000_n_0_0_1_wf : ScatterDims.WF S1000000 S16000000x1 S16000000 [] [0] [0] 1
  dot_S1000000x3_S3x4_S1000000x4_1_0_0_1_n_n_wf : DotDims.WF S1000000x3 S3x4 S1000000x4 [1] [0] [0] [1] [] []
  gather_S1000000_S16000000x1_S16000000_n_0_n_n_0_1_1_wf : GatherDims.WF S1000000 S16000000x1 S16000000 [] [0] [] [0] [] 1 ![1]
  gather_S1000000x4_S16000000x1_S16000000x4_1_0_n_n_0_1_14_wf : GatherDims.WF S1000000x4 S16000000x1 S16000000x4 [1] [0] [] [0] [] 1 ![1, 4]
  scatter_S1000000x4_S16000000x1_S16000000x4_1_0_0_1_wf : ScatterDims.WF S1000000x4 S16000000x1 S16000000x4 [1] [0] [0] 1
  dot_S1000000x4_S4x2_S1000000x2_1_0_0_1_n_n_wf : DotDims.WF S1000000x4 S4x2 S1000000x2 [1] [0] [0] [1] [] []
  gather_S1000000x2_S16000000x1_S16000000x2_1_0_n_n_0_1_12_wf : GatherDims.WF S1000000x2 S16000000x1 S16000000x2 [1] [0] [] [0] [] 1 ![1, 2]
  scatter_S1000000x2_S16000000x1_S16000000x2_1_0_0_1_wf : ScatterDims.WF S1000000x2 S16000000x1 S16000000x2 [1] [0] [0] 1

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def dot_S1000000x3_S3x4_S1000000x4_1_0_0_1_n_n : DotDims S1000000x3 S3x4 S1000000x4 where
  lhsContracting := [1]
  rhsContracting := [0]
  lhsNonContracting := [0]
  rhsNonContracting := [1]
  lhsBatch := []
  rhsBatch := []
  wf := dot_S1000000x3_S3x4_S1000000x4_1_0_0_1_n_n_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf
def dot_S1000000x4_S4x2_S1000000x2_1_0_0_1_n_n : DotDims S1000000x4 S4x2 S1000000x2 where
  lhsContracting := [1]
  rhsContracting := [0]
  lhsNonContracting := [0]
  rhsNonContracting := [1]
  lhsBatch := []
  rhsBatch := []
  wf := dot_S1000000x4_S4x2_S1000000x2_1_0_0_1_n_n_wf
def gather_S1000000x2_S16000000x1_S16000000x2_1_0_n_n_0_1_12 : GatherDims S1000000x2 S16000000x1 S16000000x2 where
  offsetDims := [1]
  collapsedSliceDims := [0]
  operandBatchingDims := []
  startIndicesBatchingDims := []
  startIndexMap := [0]
  indexVectorDim := 1
  sliceSizes := ![1, 2]
  wf := gather_S1000000x2_S16000000x1_S16000000x2_1_0_n_n_0_1_12_wf
def scatter_S1000000x2_S16000000x1_S16000000x2_1_0_0_1 : ScatterDims S1000000x2 S16000000x1 S16000000x2 where
  updateWindowDims := [1]
  insertedWindowDims := [0]
  scatterDimsToOperandDims := [0]
  indexVectorDim := 1
  wf := scatter_S1000000x2_S16000000x1_S16000000x2_1_0_0_1_wf

class Facts : Prop extends Facts₀ where

variable [Facts]
-- ==== Proof.KernelRun.lean ====
/-
  THE KERNEL PROGRAM'S RUN WITH ITS RESULT KEPT.

  The program is seven segments in a row: host operations, the first product, host operations (the first layer's gather
  and scatter-add), the first combination, the second product, host operations (the second layer's gather and
  scatter-add), the second combination. The contents of the TensorCore's buffers at each boundary form a chain
  `W0, …, W7`: a stretch of host operations applies them to what it finds, a pipelined call leaves its output arrays
  at what its write-backs folded and everything else as it found it. The run below says that every weakly fair
  execution terminates, faults nowhere, and ends with EVERY unscoped buffer at `W7` — read here at the program's result
  buffer and at its six arguments, which end as launched. What `W7` holds at the result buffer is read in Boundaries.lean.
-/
import proofs.«173813_j50895362457963_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and the six arguments end as launched. -/
theorem run_result : θ_run defs (onTc (τ := τ) (main (F := F))) ⟨m, fun _ => 0, ρ⟩ (fun r => ∀ c : Dev nD,
      r.2.mem ((c.tc : Thread nD τ).loc main_v76) = W7 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v76 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.Rowwise.lean ====
/-
  THE ROW-WISE PIECES OF A TWO-LAYER GRAPH CONVOLUTION, as functions of whole arrays over the extended reals.

  A graph-convolution layer on node features `X` (one row per node) is
      out = agg + H · dinv + b,     H = X · W,
  where `agg` is the neighbours' normalised sum (a gather and a scatter-add of rows of `H`, the same on both sides of
  this certificate, so never opened here), `dinv` one number per node and `b` one number per feature. Everything else
  acts on ONE ROW at a time: the product `X · W` (row `p` of the result is row `p` of `X` times `W`), the combination
  `agg + H · dinv + b`, the rectifier `max(·, 0)` after the first layer, and after the second the logarithm of the
  softmax of each row, `y - m - log Σ exp (y - m)` with `m` the row's maximum. A function that acts row by row commutes
  with cutting the array into blocks of rows: that is why a kernel that walks the rows block by block and a program that
  treats the array whole compute the same thing, and this file states each piece once, for any number of rows, so that
  the same definition serves a block of 8000 rows and the array of 1000000.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Rowwise

open Idealize.ShloMosaic Idealize.ShloMosaic.ValueIdx

/-! ## Two layout operations read at coordinates -/

section Layout
variable {α : Type}

/-- A column `[a, 1]` broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The pieces -/

/-- The word of minus infinity, the value a row's maximum is folded from. -/
abbrev negInf : EReal := Ideal.ofBits .f32 0xFF800000#32

/-- The word of zero, the rectifier's threshold. -/
abbrev zeroWord : EReal := Ideal.ofBits .f32 0x00000000#32

/-- ROW TIMES MATRIX: entry `(p, n)` of `X · W` is the sum over `k` of `X (p, k) · W (k, n)`. -/
def rowDot {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowDot_ix2 {M K N : ℕ} (x : (⟨2, ![M, K]⟩ : Shape).Idx → EReal) (w : (⟨2, ![K, N]⟩ : Shape).Idx → EReal)
    (p : Fin M) (n : Fin N) : rowDot x w (ix2 p n) = ∑ k : Fin K, x (ix2 p k) * w (ix2 k n) := rfl

/-- THE COMBINATION of a layer: `(agg + H · dinv) + b`, the node's own number `dinv (p)` on row `p`, the feature's own
    number `b (q)` on column `q`; in this order of the two additions, which is both programs'. -/
def combine {R C : ℕ} (agg h : (⟨2, ![R, C]⟩ : Shape).Idx → EReal) (d : (⟨2, ![R, 1]⟩ : Shape).Idx → EReal)
    (b : (⟨2, ![1, C]⟩ : Shape).Idx → EReal) : (⟨2, ![R, C]⟩ : Shape).Idx → EReal :=
  fun i => (agg i + h i * d (ix2 (i 0) (0 : Fin 1))) + b (ix2 (0 : Fin 1) (i 1))

theorem combine_ix2 {R C : ℕ} (agg h : (⟨2, ![R, C]⟩ : Shape).Idx → EReal) (d : (⟨2, ![R, 1]⟩ : Shape).Idx → EReal)
    (b : (⟨2, ![1, C]⟩ : Shape).Idx → EReal) (p : Fin R) (q : Fin C) :
    combine agg h d b (ix2 p q) = (agg (ix2 p q) + h (ix2 p q) * d (ix2 p (0 : Fin 1))) + b (ix2 (0 : Fin 1) q) := rfl

/-- THE RECTIFIER, entry by entry. -/
def relu {R C : ℕ} (y : (⟨2, ![R, C]⟩ : Shape).Idx → EReal) : (⟨2, ![R, C]⟩ : Shape).Idx → EReal :=
  fun i => max (y i) zeroWord

/-- A ROW'S MAXIMUM, folded from minus infinity over the row's entries. -/
def rowMax {R C : ℕ} (y : (⟨2, ![R, C]⟩ : Shape).Idx → EReal) (p : Fin R) : EReal :=
  (Finset.univ : Finset (Fin C)).fold max negInf fun k => y (ix2 p k)

/-- THE LOGARITHM OF A ROW'S SOFTMAX: with `m` the row's maximum, `(y - m) - log Σ_k exp (y_k - m)`. -/
def logSoftmaxRows {R C : ℕ} (y : (⟨2, ![R, C]⟩ : Shape).Idx → EReal) : (⟨2, ![R, C]⟩ : Shape).Idx → EReal :=
  fun i => (y i - rowMax y (i 0)) - Ideal.log (∑ k : Fin C, Ideal.exp (y (ix2 (i 0) k) - rowMax y (i 0)))

theorem logSoftmaxRows_ix2 {R C : ℕ} (y : (⟨2, ![R, C]⟩ : Shape).Idx → EReal) (p : Fin R) (q : Fin C) :
    logSoftmaxRows y (ix2 p q)
      = (y (ix2 p q) - rowMax y p) - Ideal.log (∑ k : Fin C, Ideal.exp (y (ix2 p k) - rowMax y p)) := rfl

/-! ## Row-wise functions commute with taking a block of rows

`ρ` sends a row of the block to the row of the array it is; a block `xb` of an array `X` along `ρ` is
`xb (p, k) = X (ρ p, k)`. Each piece above, applied to blocks of its operands along `ρ`, is the block along `ρ` of the
piece applied to the whole arrays: nothing in row `ρ p` of the result looks at another row. -/

section Blocks
variable {R B : ℕ} (ρ : Fin B → Fin R)

theorem rowDot_rows {K N : ℕ} (X : (⟨2, ![R, K]⟩ : Shape).Idx → EReal) (W : (⟨2, ![K, N]⟩ : Shape).Idx → EReal)
    (xb : (⟨2, ![B, K]⟩ : Shape).Idx → EReal) (wb : (⟨2, ![K, N]⟩ : Shape).Idx → EReal)
    (hx : ∀ (p : Fin B) (k : Fin K), xb (ix2 p k) = X (ix2 (ρ p) k)) (hw : ∀ (k : Fin K) (n : Fin N), wb (ix2 k n) = W (ix2 k n))
    (p : Fin B) (n : Fin N) : rowDot xb wb (ix2 p n) = rowDot X W (ix2 (ρ p) n) := by
  rw [rowDot_ix2, rowDot_ix2]
  exact Finset.sum_congr rfl fun k _ => by rw [hx p k, hw k n]

theorem combine_rows {C : ℕ} (AGG H : (⟨2, ![R, C]⟩ : Shape).Idx → EReal) (D : (⟨2, ![R, 1]⟩ : Shape).Idx → EReal)
    (Bv : (⟨2, ![1, C]⟩ : Shape).Idx → EReal) (aggb hb : (⟨2, ![B, C]⟩ : Shape).Idx → EReal)
    (db : (⟨2, ![B, 1]⟩ : Shape).Idx → EReal) (bb : (⟨2, ![1, C]⟩ : Shape).Idx → EReal)
    (ha : ∀ (p : Fin B) (q : Fin C), aggb (ix2 p q) = AGG (ix2 (ρ p) q))
    (hh : ∀ (p : Fin B) (q : Fin C), hb (ix2 p q) = H (ix2 (ρ p) q))
    (hd : ∀ p : Fin B, db (ix2 p (0 : Fin 1)) = D (ix2 (ρ p) (0 : Fin 1)))
    (hbv : ∀ q : Fin C, bb (ix2 (0 : Fin 1) q) = Bv (ix2 (0 : Fin 1) q))
    (p : Fin B) (q : Fin C) : combine aggb hb db bb (ix2 p q) = combine AGG H D Bv (ix2 (ρ p) q) := by
  rw [combine_ix2, combine_ix2, ha p q, hh p q, hd p, hbv q]

theorem relu_rows {C : ℕ} (Y : (⟨2, ![R, C]⟩ : Shape).Idx → EReal) (yb : (⟨2, ![B, C]⟩ : Shape).Idx → EReal)
    (hy : ∀ (p : Fin B) (q : Fin C), yb (ix2 p q) = Y (ix2 (ρ p) q)) (p : Fin B) (q : Fin C) :
    relu yb (ix2 p q) = relu Y (ix2 (ρ p) q) := by
  show max (yb (ix2 p q)) zeroWord = max (Y (ix2 (ρ p) q)) zeroWord
  rw [hy p q]

theorem rowMax_rows {C : ℕ} (Y : (⟨2, ![R, C]⟩ : Shape).Idx → EReal) (yb : (⟨2, ![B, C]⟩ : Shape).Idx → EReal)
    (hy : ∀ (p : Fin B) (q : Fin C), yb (ix2 p q) = Y (ix2 (ρ p) q)) (p : Fin B) : rowMax yb p = rowMax Y (ρ p) := by
  unfold rowMax
  exact congrArg (fun f => Finset.fold max negInf f (Finset.univ : Finset (Fin C))) (funext fun k => hy p k)

theorem logSoftmaxRows_rows {C : ℕ} (Y : (⟨2, ![R, C]⟩ : Shape).Idx → EReal) (yb : (⟨2, ![B, C]⟩ : Shape).Idx → EReal)
    (hy : ∀ (p : Fin B) (q : Fin C), yb (ix2 p q) = Y (ix2 (ρ p) q)) (p : Fin B) (q : Fin C) :
    logSoftmaxRows yb (ix2 p q) = logSoftmaxRows Y (ix2 (ρ p) q) := by
  rw [logSoftmaxRows_ix2, logSoftmaxRows_ix2, rowMax_rows ρ Y yb hy p, hy p q]
  exact congrArg (fun s => (Y (ix2 (ρ p) q) - rowMax Y (ρ p)) - Ideal.log s)
    (Finset.sum_congr rfl fun k _ => by rw [hy p k])

end Blocks

/-- Taking the larger of minus infinity and `r` leaves `r`: minus infinity is the least extended real. -/
theorem max_negInf_left (r : EReal) : max negInf r = r := by
  show max (Ideal.ofBits .f32 0xFF800000#32) r = r
  simp [Ideal.ofBits, Ideal.ieee]

end Cert.Rowwise

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.Blocks.lean ====
/-
  WHAT EACH OF THE FOUR KERNEL BODIES COMPUTES ON ONE BLOCK OF 8000 ROWS, at the ideal values.

  The two product bodies round their operands to bf16 on the way into the matrix unit; at the ideal values a change of
  format is the identity and the unit's product into a zero accumulator is the plain sum over the contracted index, so
  the block they store is the block of rows times the weight matrix (`rowDot`). The two combining bodies compute
  `(agg + H · dinv) + b` entry by entry — the column `dinv` and the row `b` broadcast across the block — and then the
  rectifier (first layer) or, row by row, the maximum over the two lanes, the shifted exponentials' sum over the two
  lanes and the logarithm (second layer): `relu (combine …)` and `logSoftmaxRows (combine …)` of Rowwise.lean, at 8000
  rows.
-/
import proofs.«173813_j50895362457963_2_alg».proof.Proof.Gen.KernelIdeal.Skeleton
import proofs.«173813_j50895362457963_2_alg».proof.Proof.Rowwise
import proofs.«173813_j50895362457963_2_alg».proof.Proof.LibPlainDot

noncomputable section

open scoped BigOperators

namespace Cert.KernelIdeal.Blocks

open Cert.KernelIdeal Cert.KernelIdeal.Gen Cert.Rowwise Idealize.ShloMosaic Idealize.ShloMosaic.ValueIdx

/-! ## The two products -/

/-- First layer: the block of rows of `X` times `W1`. -/
theorem rows_times_W1 (x : FVec Ideal S8000x3 .f32) (w : FVec Ideal S3x4 .f32) :
    k0_pay1 (F := Ideal) x w = rowDot x w := by
  funext j
  obtain ⟨p, n, rfl⟩ : ∃ (p : Fin 8000) (n : Fin 4), j = ix2 p n := ⟨j 0, j 1, eq_ix2 j⟩
  rw [rowDot_ix2]
  unfold k0_pay1
  refine (Ideal.matmul_constant_zero_apply _ none _ _ _).trans ?_
  exact Cert.Lib.sum_contr_plain dot_S8000x3_S3x4_S8000x4_1_0_0_1_n_n rfl rfl rfl rfl rfl rfl (fun a b => x a * w b) p n

/-- Second layer: the block of rows of the first layer's output times `W2`. -/
theorem rows_times_W2 (x : FVec Ideal S8000x4 .f32) (w : FVec Ideal S4x2 .f32) :
    k2_pay1 (F := Ideal) x w = rowDot x w := by
  funext j
  obtain ⟨p, n, rfl⟩ : ∃ (p : Fin 8000) (n : Fin 2), j = ix2 p n := ⟨j 0, j 1, eq_ix2 j⟩
  rw [rowDot_ix2]
  unfold k2_pay1
  try dsimp only
  rw [shapeCast_self]
  refine (Ideal.matmul_constant_zero_apply _ none _ _ _).trans ?_
  exact Cert.Lib.sum_contr_plain dot_S8000x4_S4x2_S8000x2_1_0_0_1_n_n rfl rfl rfl rfl rfl rfl (fun a b => x a * w b) p n

/-! ## The combination, at both widths -/

/-- Width 4: the body's first lines are `(agg + H · dinv) + b`, the column and the row broadcast over the block. -/
theorem combine_rows4 (agg h : FVec Ideal S8000x4 .f32) (d : FVec Ideal S8000x1 .f32) (b : FVec Ideal S1x4 .f32) :
    addf (addf (shapeCast S8000x4 agg shapeCasts_S8000x4_S8000x4)
        (mulf (shapeCast S8000x4 h shapeCasts_S8000x4_S8000x4)
          (broadcastTo S8000x4 (shapeCast S8000x1 d shapeCasts_S8000x1_S8000x1) broadcasts_S8000x1_S8000x4)))
      (broadcastTo S8000x4 (shapeCast S1x4 b shapeCasts_S1x4_S1x4) broadcasts_S1x4_S8000x4)
      = combine agg h d b := by
  funext j
  obtain ⟨p, q, rfl⟩ : ∃ (p : Fin 8000) (q : Fin 4), j = ix2 p q := ⟨j 0, j 1, eq_ix2 j⟩
  rw [combine_ix2, addf_apply, addf_apply, mulf_apply, shapeCast_self, shapeCast_self, shapeCast_self, shapeCast_self,
    broadcastTo_a1_ab_apply, broadcastTo_1b_ab_apply]

/-- Width 2: the same lines. -/
theorem combine_rows2 (agg h : FVec Ideal S8000x2 .f32) (d : FVec Ideal S8000x1 .f32) (b : FVec Ideal S1x2 .f32) :
    addf (addf (shapeCast S8000x2 agg shapeCasts_S8000x2_S8000x2)
        (mulf (shapeCast S8000x2 h shapeCasts_S8000x2_S8000x2)
          (broadcastTo S8000x2 (shapeCast S8000x1 d shapeCasts_S8000x1_S8000x1) broadcasts_S8000x1_S8000x2)))
      (broadcastTo S8000x2 (shapeCast S1x2 b shapeCasts_S1x2_S1x2) broadcasts_S1x2_S8000x2)
      = combine agg h d b := by
  funext j
  obtain ⟨p, q, rfl⟩ : ∃ (p : Fin 8000) (q : Fin 2), j = ix2 p q := ⟨j 0, j 1, eq_ix2 j⟩
  rw [combine_ix2, addf_apply, addf_apply, mulf_apply, shapeCast_self, shapeCast_self, shapeCast_self, shapeCast_self,
    broadcastTo_a1_ab_apply, broadcastTo_1b_ab_apply]

/-! ## First layer's epilogue: the rectifier -/

theorem block_relu (agg h : FVec Ideal S8000x4 .f32) (d : FVec Ideal S8000x1 .f32) (b : FVec Ideal S1x4 .f32) :
    k1_pay1 (F := Ideal) agg h d b = relu (combine agg h d b) := by
  have e := combine_rows4 agg h d b
  unfold k1_pay1
  try dsimp only
  rw [e]
  rfl

/-! ## Second layer's epilogue: the logarithm of each row's softmax -/

/-- The lane maximum of row `p`, folded from minus infinity, is the row's maximum. -/
theorem lanes_max (y : FVec Ideal S8000x2 .f32) (p : Fin 8000) :
    multiReduction .maximumf [1] S8000 y 0xFF800000#32 reduces_S8000x2_S8000 (.inl rfl) rfl (ix1 p) = rowMax y p := by
  refine (Ideal.multiReduction_maximumf_single y 0xFF800000#32 reduces_S8000x2_S8000 (.inl rfl) rfl (ix1 p)).trans ?_
  unfold rowMax
  refine congrArg (fun f => Finset.fold max negInf f (Finset.univ : Finset (Fin 2))) (funext fun k => congrArg y ?_)
  funext a; apply Fin.ext; fin_cases a <;> rfl

/-- The lane sum of row `p`, accumulated from zero, is the sum of the row's two entries. -/
theorem lanes_sum (z : FVec Ideal S8000x2 .f32) (p : Fin 8000) :
    multiReduction .add [1] S8000 z 0x00000000#32 reduces_S8000x2_S8000 (.inl rfl) rfl (ix1 p) = ∑ k : Fin 2, z (ix2 p k) := by
  refine (Ideal.multiReduction_add_single z 0x00000000#32 reduces_S8000x2_S8000 (.inl rfl) rfl (ix1 p)).trans ?_
  refine Finset.sum_congr rfl fun k _ => congrArg z ?_
  funext a; apply Fin.ext; fin_cases a <;> rfl

/-- The row maxima kept as a column and broadcast back over the two lanes: every entry of row `p` sees `rowMax y p`. -/
theorem keep_max (y : FVec Ideal S8000x2 .f32) :
    broadcastTo S8000x2 (shapeCast S8000x1 (multiReduction .maximumf [1] S8000 y 0xFF800000#32 reduces_S8000x2_S8000 (.inl rfl) rfl)
        shapeCasts_S8000_S8000x1) broadcasts_S8000x1_S8000x2
      = fun i => rowMax y (i 0) := by
  funext j
  obtain ⟨p, q, rfl⟩ : ∃ (p : Fin 8000) (q : Fin 2), j = ix2 p q := ⟨j 0, j 1, eq_ix2 j⟩
  exact (broadcastTo_a1_ab_apply _ _ p q).trans ((shapeCast_a_a1_apply _ _ p 0).trans (lanes_max y p))

/-- The logarithm of the row sums, kept as a column and broadcast back over the two lanes. -/
theorem keep_log_sum (z : FVec Ideal S8000x2 .f32) :
    broadcastTo S8000x2 (log (shapeCast S8000x1 (multiReduction .add [1] S8000 z 0x00000000#32 reduces_S8000x2_S8000 (.inl rfl) rfl)
        shapeCasts_S8000_S8000x1)) broadcasts_S8000x1_S8000x2
      = fun i => Ideal.log (∑ k : Fin 2, z (ix2 (i 0) k)) := by
  funext j
  obtain ⟨p, q, rfl⟩ : ∃ (p : Fin 8000) (q : Fin 2), j = ix2 p q := ⟨j 0, j 1, eq_ix2 j⟩
  refine (broadcastTo_a1_ab_apply _ _ p q).trans ?_
  show Ideal.log (shapeCast S8000x1 (multiReduction .add [1] S8000 z 0x00000000#32 reduces_S8000x2_S8000 (.inl rfl) rfl)
    shapeCasts_S8000_S8000x1 (ix2 p (0 : Fin 1))) = _
  exact congrArg Ideal.log ((shapeCast_a_a1_apply _ _ p 0).trans (lanes_sum z p))

theorem block_logSoftmax (agg h : FVec Ideal S8000x2 .f32) (d : FVec Ideal S8000x1 .f32) (b : FVec Ideal S1x2 .f32) :
    k3_pay1 (F := Ideal) agg h d b = logSoftmaxRows (combine agg h d b) := by
  have e := combine_rows2 agg h d b
  unfold k3_pay1
  try dsimp only
  rw [e]
  generalize combine agg h d b = y
  rw [keep_max, keep_log_sum]
  rfl

end Cert.KernelIdeal.Blocks

end
-- ==== Proof.Arrays.lean ====
/-
  EACH PIPELINED CALL'S OUTPUT ARRAY, WHOLE, as a function of the arrays the call finds.

  Each of the four calls walks the 1000000 rows in 125 blocks of 8000: point `t` reads rows `8000 t … 8000 t + 7999`
  of its row-blocked operands (and the whole of the small ones: a weight matrix, a bias row), and writes the same rows of
  its output. What the body stores on a block is a row-wise function of the blocks it loaded (Blocks.lean), and a
  row-wise function of a block of rows is the block of rows of the function of the whole arrays (Rowwise.lean); the 125
  blocks tile the output array (row `r` is in block `r / 8000`), so the array ends holding that function of the whole
  arrays. Stated for ANY contents `V` the call may find, since the program enters each call with different ones.
-/
import proofs.«173813_j50895362457963_2_alg».proof.Proof.Gen.KernelIdeal.Frame
import proofs.«173813_j50895362457963_2_alg».proof.Proof.Blocks
import Idealize.ShloMosaic.Lib.Pipeline.Value

set_option maxRecDepth 16384

noncomputable section

namespace Cert.KernelIdeal.Whole

open Cert.KernelIdeal Cert.KernelIdeal.Gen Cert.Rowwise
open Idealize.ShloMosaic Idealize.ShloMosaic.TcCoe Idealize.ShloMosaic.ValueIdx
open Idealize.SL.Sem
open Idealize.ShloMosaic.Pipeline (Dat Cfg Window)

theorem zeroOffsets : (![0, 0] : Fin 2 → Nat) = fun _ => 0 := funext fun a => by fin_cases a <;> rfl

/-- Row `p` of point `t`'s block is row `8000 t + p` of the array. -/
def rowOf (t : Nat) (ht : t < 125) (p : Fin 8000) : Fin 1000000 := ⟨t * 8000 + p.val, by have := p.isLt; omega⟩

variable (V : (c : Dev nD) → (b : Ref sig .tc) → Buf (Elt Ideal) ((c : Thread nD τ).loc b))

/-! ## The first product: `X · W1` -/

/-- Where each window's block sits at point `t`: the rows' windows at block row `t`, the weight's at its only block. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 125 :=
  (by decide +kernel : ∀ t : Fin grid0.N, _)

/-- What point `t` writes back is block `t` of `X · W1`. -/
theorem flushed0 (c : Dev nD) (t : Fin cfg0.N) :
    (dat0 V c).flushed 2 t = ((cfg0.win 2).blk t).view.read (Elt Ideal) (rowDot (V c main_arg0) (V c main_arg2)) := by
  show (cfg0.win 2).cut (grid0.coords t) ((dat0 V c).after 2 t) = _
  rw [after0_2]
  unfold out0_2
  rw [View.canon_unit_zero zeroOffsets]
  simp only [View.ld_unit_zero (S := S8000x3) zeroOffsets, View.ld_unit_zero (S := S3x4) zeroOffsets]
  rw [Blocks.rows_times_W1]
  obtain ⟨e00, e01, e10, e11, e20, e21, ht⟩ := where0 t
  refine funext fun (j : S8000x4.Idx) => ?_
  obtain ⟨p, n, rfl⟩ : ∃ (p : Fin 8000) (n : Fin 4), j = ix2 p n := ⟨j 0, j 1, eq_ix2 j⟩
  have hout : ((cfg0.win 2).blk t).view.emb (ix2 p n) = ix2 (rowOf t.val ht p) n := by
    funext a; apply Fin.ext
    match a with
    | ⟨0, _⟩ => show win0_2.index t (0 : Fin 2) * 8000 + 1 * p.val = t.val * 8000 + p.val; omega
    | ⟨1, _⟩ => show win0_2.index t (1 : Fin 2) * 4 + 1 * n.val = n.val; omega
  show rowDot (iblk0 V c 0 t) (iblk0 V c 1 t) (ix2 p n)
    = rowDot (V c main_arg0) (V c main_arg2) (((cfg0.win 2).blk t).view.emb (ix2 p n))
  rw [hout]
  refine rowDot_rows (rowOf t.val ht) (V c main_arg0) (V c main_arg2) _ _ (fun p k => ?_) (fun k n => ?_) p n
  · show V c main_arg0 (((cfg0.win 0).blk t).view.emb (ix2 p k)) = V c main_arg0 (ix2 (rowOf t.val ht p) k)
    refine congrArg _ (funext fun a => Fin.ext ?_)
    match a with
    | ⟨0, _⟩ => show win0_0.index t (0 : Fin 2) * 8000 + 1 * p.val = t.val * 8000 + p.val; omega
    | ⟨1, _⟩ => show win0_0.index t (1 : Fin 2) * 3 + 1 * k.val = k.val; omega
  · show V c main_arg2 (((cfg0.win 1).blk t).view.emb (ix2 k n)) = V c main_arg2 (ix2 k n)
    refine congrArg _ (funext fun a => Fin.ext ?_)
    match a with
    | ⟨0, _⟩ => show win0_1.index t (0 : Fin 2) * 3 + 1 * k.val = k.val; omega
    | ⟨1, _⟩ => show win0_1.index t (1 : Fin 2) * 4 + 1 * n.val = n.val; omega

/-- An index of the output array is in point `t`'s block iff each coordinate is in the block's range on its axis. -/
theorem mem_blk0 (t : Fin cfg0.N) (i : S1000000x4.Idx) :
    i ∈ ((cfg0.win 2).blk t).view.set ↔ ∀ a : Fin 2, win0_2.index t a * S8000x4.size a ≤ (i a).val
      ∧ (i a).val < win0_2.index t a * S8000x4.size a + S8000x4.size a := by
  show i ∈ ((View.whole main_v13).slice (win0_2.rect t)).set ↔ _
  rw [View.set_slice_whole, Rect.mem_set_unit]
  exact Iff.rfl

/-- The blocks tile the output: row `r` is in the block of point `r / 8000`. -/
theorem cover0 (i : S1000000x4.Idx) :
    ∃ t : Fin cfg0.N, (cfg0.win 2).flush t = true ∧ i ∈ ((cfg0.win 2).blk t).view.set := by
  have hi0 : (i 0).val < 1000000 := (i 0).isLt
  have hi1 : (i 1).val < 4 := (i 1).isLt
  obtain ⟨t, htv⟩ : ∃ t : Fin cfg0.N, t.val = (i 0).val / 8000 :=
    ⟨⟨(i 0).val / 8000, Nat.lt_of_lt_of_eq (by omega : (i 0).val / 8000 < 125) (N_0.symm : 125 = cfg0.N)⟩, rfl⟩
  obtain ⟨-, -, -, -, e20, e21, -⟩ := where0 t
  refine ⟨t, flush0_2 t, ?_⟩
  rw [mem_blk0]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 4 ≤ (i 1).val ∧ (i 1).val < win0_2.index t (1 : Fin 2) * 4 + 4
    omega

/-- THE FIRST PRODUCT'S ARRAY after the call: `X · W1` of the arrays the call found. -/
theorem final0 (c : Dev nD) : (dat0 V c).arrAt 2 cfg0.N = rowDot (V c main_arg0) (V c main_arg2) :=
  (dat0 V c).arrAt_eq_of_cover 2 _ (fun t _ => flushed0 V c t) cover0

/-! ## The first combination: the rectified `(agg + H · dinv) + b` -/

/-- Where each window's block sits at point `t`: the row-blocked windows at block row `t`, the bias row's at its only block. -/
theorem where1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 125 :=
  (by decide +kernel : ∀ t : Fin grid1.N, _)

/-- What point `t` writes back is block `t` of the rectified combination. -/
theorem flushed1 (c : Dev nD) (t : Fin cfg1.N) :
    (dat1 V c).flushed 4 t = ((cfg1.win 4).blk t).view.read (Elt Ideal)
      (relu (combine (V c main_v41) (V c main_v13) (V c main_v42) (V c main_v43))) := by
  show (cfg1.win 4).cut (grid1.coords t) ((dat1 V c).after 4 t) = _
  rw [after1_4]
  unfold out1_4
  rw [View.canon_unit_zero zeroOffsets]
  simp only [View.ld_unit_zero (S := S8000x4) zeroOffsets, View.ld_unit_zero (S := S8000x1) zeroOffsets,
    View.ld_unit_zero (S := S1x4) zeroOffsets]
  rw [Blocks.block_relu]
  obtain ⟨e00, e01, e10, e11, e20, e21, e30, e31, e40, e41, ht⟩ := where1 t
  refine funext fun (j : S8000x4.Idx) => ?_
  obtain ⟨p, q, rfl⟩ : ∃ (p : Fin 8000) (q : Fin 4), j = ix2 p q := ⟨j 0, j 1, eq_ix2 j⟩
  have hout : ((cfg1.win 4).blk t).view.emb (ix2 p q) = ix2 (rowOf t.val ht p) q := by
    funext a; apply Fin.ext
    match a with
    | ⟨0, _⟩ => show win1_4.index t (0 : Fin 2) * 8000 + 1 * p.val = t.val * 8000 + p.val; omega
    | ⟨1, _⟩ => show win1_4.index t (1 : Fin 2) * 4 + 1 * q.val = q.val; omega
  show relu (combine (iblk1 V c 0 t) (iblk1 V c 1 t) (iblk1 V c 2 t) (iblk1 V c 3 t)) (ix2 p q)
    = relu (combine (V c main_v41) (V c main_v13) (V c main_v42) (V c main_v43)) (((cfg1.win 4).blk t).view.emb (ix2 p q))
  rw [hout]
  refine relu_rows (rowOf t.val ht) _ _ (fun p q => ?_) p q
  refine combine_rows (rowOf t.val ht) (V c main_v41) (V c main_v13) (V c main_v42) (V c main_v43) _ _ _ _
    (fun p q => ?_) (fun p q => ?_) (fun p => ?_) (fun q => ?_) p q
  · show V c main_v41 (((cfg1.win 0).blk t).view.emb (ix2 p q)) = V c main_v41 (ix2 (rowOf t.val ht p) q)
    refine congrArg _ (funext fun a => Fin.ext ?_)
    match a with
    | ⟨0, _⟩ => show win1_0.index t (0 : Fin 2) * 8000 + 1 * p.val = t.val * 8000 + p.val; omega
    | ⟨1, _⟩ => show win1_0.index t (1 : Fin 2) * 4 + 1 * q.val = q.val; omega
  · show V c main_v13 (((cfg1.win 1).blk t).view.emb (ix2 p q)) = V c main_v13 (ix2 (rowOf t.val ht p) q)
    refine congrArg _ (funext fun a => Fin.ext ?_)
    match a with
    | ⟨0, _⟩ => show win1_1.index t (0 : Fin 2) * 8000 + 1 * p.val = t.val * 8000 + p.val; omega
    | ⟨1, _⟩ => show win1_1.index t (1 : Fin 2) * 4 + 1 * q.val = q.val; omega
  · show V c main_v42 (((cfg1.win 2).blk t).view.emb (ix2 p (0 : Fin 1))) = V c main_v42 (ix2 (rowOf t.val ht p) (0 : Fin 1))
    refine congrArg _ (funext fun a => Fin.ext ?_)
    match a with
    | ⟨0, _⟩ => show win1_2.index t (0 : Fin 2) * 8000 + 1 * p.val = t.val * 8000 + p.val; omega
    | ⟨1, _⟩ => show win1_2.index t (1 : Fin 2) * 1 + 1 * 0 = 0; omega
  · show V c main_v43 (((cfg1.win 3).blk t).view.emb (ix2 (0 : Fin 1) q)) = V c main_v43 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 4 + 1 * q.val = q.val; omega

/-- An index of the output array is in point `t`'s block iff each coordinate is in the block's range on its axis. -/
theorem mem_blk1 (t : Fin cfg1.N) (i : S1000000x4.Idx) :
    i ∈ ((cfg1.win 4).blk t).view.set ↔ ∀ a : Fin 2, win1_4.index t a * S8000x4.size a ≤ (i a).val
      ∧ (i a).val < win1_4.index t a * S8000x4.size a + S8000x4.size a := by
  show i ∈ ((View.whole main_v44).slice (win1_4.rect t)).set ↔ _
  rw [View.set_slice_whole, Rect.mem_set_unit]
  exact Iff.rfl

/-- The blocks tile the output: row `r` is in the block of point `r / 8000`. -/
theorem cover1 (i : S1000000x4.Idx) :
    ∃ t : Fin cfg1.N, (cfg1.win 4).flush t = true ∧ i ∈ ((cfg1.win 4).blk t).view.set := by
  have hi0 : (i 0).val < 1000000 := (i 0).isLt
  have hi1 : (i 1).val < 4 := (i 1).isLt
  obtain ⟨t, htv⟩ : ∃ t : Fin cfg1.N, t.val = (i 0).val / 8000 :=
    ⟨⟨(i 0).val / 8000, Nat.lt_of_lt_of_eq (by omega : (i 0).val / 8000 < 125) (N_1.symm : 125 = cfg1.N)⟩, rfl⟩
  obtain ⟨-, -, -, -, -, -, -, -, e40, e41, -⟩ := where1 t
  refine ⟨t, flush1_4 t, ?_⟩
  rw [mem_blk1]
  intro a
  match a with
  | ⟨0, _⟩ =>
    show win1_4.index t (0 : Fin 2) * 8000 ≤ (i 0).val ∧ (i 0).val < win1_4.index t (0 : Fin 2) * 8000 + 8000
    omega
  | ⟨1, _⟩ =>
    show win1_4.index t (1 : Fin 2) * 4 ≤ (i 1).val ∧ (i 1).val < win1_4.index t (1 : Fin 2) * 4 + 4
    omega

/-- THE FIRST LAYER'S OUTPUT ARRAY after the call: the rectified combination of the arrays the call found. -/
theorem final1 (c : Dev nD) : (dat1 V c).arrAt 4 cfg1.N
    = relu (combine (V c main_v41) (V c main_v13) (V c main_v42) (V c main_v43)) :=
  (dat1 V c).arrAt_eq_of_cover 4 _ (fun t _ => flushed1 V c t) cover1

/-! ## The second product: `H1 · W2` -/

/-- Where each window's block sits at point `t`: the rows' windows at block row `t`, the weight's at its only block. -/
theorem where2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 125 :=
  (by decide +kernel : ∀ t : Fin grid2.N, _)

/-- What point `t` writes back is block `t` of `H1 · W2`. -/
theorem flushed2 (c : Dev nD) (t : Fin cfg2.N) :
    (dat2 V c).flushed 2 t = ((cfg2.win 2).blk t).view.read (Elt Ideal) (rowDot (V c main_v44) (V c main_arg4)) := by
  show (cfg2.win 2).cut (grid2.coords t) ((dat2 V c).after 2 t) = _
  rw [after2_2]
  unfold out2_2
  rw [View.canon_unit_zero zeroOffsets]
  simp only [View.ld_unit_zero (S := S8000x4) zeroOffsets, View.ld_unit_zero (S := S4x2) zeroOffsets]
  rw [Blocks.rows_times_W2]
  obtain ⟨e00, e01, e10, e11, e20, e21, ht⟩ := where2 t
  refine funext fun (j : S8000x2.Idx) => ?_
  obtain ⟨p, n, rfl⟩ : ∃ (p : Fin 8000) (n : Fin 2), j = ix2 p n := ⟨j 0, j 1, eq_ix2 j⟩
  have hout : ((cfg2.win 2).blk t).view.emb (ix2 p n) = ix2 (rowOf t.val ht p) n := by
    funext a; apply Fin.ext
    match a with
    | ⟨0, _⟩ => show win2_2.index t (0 : Fin 2) * 8000 + 1 * p.val = t.val * 8000 + p.val; omega
    | ⟨1, _⟩ => show win2_2.index t (1 : Fin 2) * 2 + 1 * n.val = n.val; omega
  show rowDot (iblk2 V c 0 t) (iblk2 V c 1 t) (ix2 p n)
    = rowDot (V c main_v44) (V c main_arg4) (((cfg2.win 2).blk t).view.emb (ix2 p n))
  rw [hout]
  refine rowDot_rows (rowOf t.val ht) (V c main_v44) (V c main_arg4) _ _ (fun p k => ?_) (fun k n => ?_) p n
  · show V c main_v44 (((cfg2.win 0).blk t).view.emb (ix2 p k)) = V c main_v44 (ix2 (rowOf t.val ht p) k)
    refine congrArg _ (funext fun a => Fin.ext ?_)
    match a with
    | ⟨0, _⟩ => show win2_0.index t (0 : Fin 2) * 8000 + 1 * p.val = t.val * 8000 + p.val; omega
    | ⟨1, _⟩ => show win2_0.index t (1 : Fin 2) * 4 + 1 * k.val = k.val; omega
  · show V c main_arg4 (((cfg2.win 1).blk t).view.emb (ix2 k n)) = V c main_arg4 (ix2 k n)
    refine congrArg _ (funext fun a => Fin.ext ?_)
    match a with
    | ⟨0, _⟩ => show win2_1.index t (0 : Fin 2) * 4 + 1 * k.val = k.val; omega
    | ⟨1, _⟩ => show win2_1.index t (1 : Fin 2) * 2 + 1 * n.val = n.val; omega

/-- An index of the output array is in point `t`'s block iff each coordinate is in the block's range on its axis. -/
theorem mem_blk2 (t : Fin cfg2.N) (i : S1000000x2.Idx) :
    i ∈ ((cfg2.win 2).blk t).view.set ↔ ∀ a : Fin 2, win2_2.index t a * S8000x2.size a ≤ (i a).val
      ∧ (i a).val < win2_2.index t a * S8000x2.size a + S8000x2.size a := by
  show i ∈ ((View.whole main_v45).slice (win2_2.rect t)).set ↔ _
  rw [View.set_slice_whole, Rect.mem_set_unit]
  exact Iff.rfl

/-- The blocks tile the output: row `r` is in the block of point `r / 8000`. -/
theorem cover2 (i : S1000000x2.Idx) :
    ∃ t : Fin cfg2.N, (cfg2.win 2).flush t = true ∧ i ∈ ((cfg2.win 2).blk t).view.set := by
  have hi0 : (i 0).val < 1000000 := (i 0).isLt
  have hi1 : (i 1).val < 2 := (i 1).isLt
  obtain ⟨t, htv⟩ : ∃ t : Fin cfg2.N, t.val = (i 0).val / 8000 :=
    ⟨⟨(i 0).val / 8000, Nat.lt_of_lt_of_eq (by omega : (i 0).val / 8000 < 125) (N_2.symm : 125 = cfg2.N)⟩, rfl⟩
  obtain ⟨-, -, -, -, e20, e21, -⟩ := where2 t
  refine ⟨t, flush2_2 t, ?_⟩
  rw [mem_blk2]
  intro a
  match a with
  | ⟨0, _⟩ =>
    show win2_2.index t (0 : Fin 2) * 8000 ≤ (i 0).val ∧ (i 0).val < win2_2.index t (0 : Fin 2) * 8000 + 8000
    omega
  | ⟨1, _⟩ =>
    show win2_2.index t (1 : Fin 2) * 2 ≤ (i 1).val ∧ (i 1).val < win2_2.index t (1 : Fin 2) * 2 + 2
    omega

/-- THE SECOND PRODUCT'S ARRAY after the call: `H1 · W2` of the arrays the call found. -/
theorem final2 (c : Dev nD) : (dat2 V c).arrAt 2 cfg2.N = rowDot (V c main_v44) (V c main_arg4) :=
  (dat2 V c).arrAt_eq_of_cover 2 _ (fun t _ => flushed2 V c t) cover2

/-! ## The second combination: each row's log-softmax of `(agg + H · dinv) + b` -/

/-- Where each window's block sits at point `t`: the row-blocked windows at block row `t`, the bias row's at its only block. -/
theorem where3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 125 :=
  (by decide +kernel : ∀ t : Fin grid3.N, _)

/-- What point `t` writes back is block `t` of the rows' log-softmax of the combination. -/
theorem flushed3 (c : Dev nD) (t : Fin cfg3.N) :
    (dat3 V c).flushed 4 t = ((cfg3.win 4).blk t).view.read (Elt Ideal)
      (logSoftmaxRows (combine (V c main_v73) (V c main_v45) (V c main_v74) (V c main_v75))) := by
  show (cfg3.win 4).cut (grid3.coords t) ((dat3 V c).after 4 t) = _
  rw [after3_4]
  unfold out3_4
  rw [View.canon_unit_zero zeroOffsets]
  simp only [View.ld_unit_zero (S := S8000x2) zeroOffsets, View.ld_unit_zero (S := S8000x1) zeroOffsets,
    View.ld_unit_zero (S := S1x2) zeroOffsets]
  rw [Blocks.block_logSoftmax]
  obtain ⟨e00, e01, e10, e11, e20, e21, e30, e31, e40, e41, ht⟩ := where3 t
  refine funext fun (j : S8000x2.Idx) => ?_
  obtain ⟨p, q, rfl⟩ : ∃ (p : Fin 8000) (q : Fin 2), j = ix2 p q := ⟨j 0, j 1, eq_ix2 j⟩
  have hout : ((cfg3.win 4).blk t).view.emb (ix2 p q) = ix2 (rowOf t.val ht p) q := by
    funext a; apply Fin.ext
    match a with
    | ⟨0, _⟩ => show win3_4.index t (0 : Fin 2) * 8000 + 1 * p.val = t.val * 8000 + p.val; omega
    | ⟨1, _⟩ => show win3_4.index t (1 : Fin 2) * 2 + 1 * q.val = q.val; omega
  show logSoftmaxRows (combine (iblk3 V c 0 t) (iblk3 V c 1 t) (iblk3 V c 2 t) (iblk3 V c 3 t)) (ix2 p q)
    = logSoftmaxRows (combine (V c main_v73) (V c main_v45) (V c main_v74) (V c main_v75)) (((cfg3.win 4).blk t).view.emb (ix2 p q))
  rw [hout]
  refine logSoftmaxRows_rows (rowOf t.val ht) _ _ (fun p q => ?_) p q
  refine combine_rows (rowOf t.val ht) (V c main_v73) (V c main_v45) (V c main_v74) (V c main_v75) _ _ _ _
    (fun p q => ?_) (fun p q => ?_) (fun p => ?_) (fun q => ?_) p q
  · show V c main_v73 (((cfg3.win 0).blk t).view.emb (ix2 p q)) = V c main_v73 (ix2 (rowOf t.val ht p) q)
    refine congrArg _ (funext fun a => Fin.ext ?_)
    match a with
    | ⟨0, _⟩ => show win3_0.index t (0 : Fin 2) * 8000 + 1 * p.val = t.val * 8000 + p.val; omega
    | ⟨1, _⟩ => show win3_0.index t (1 : Fin 2) * 2 + 1 * q.val = q.val; omega
  · show V c main_v45 (((cfg3.win 1).blk t).view.emb (ix2 p q)) = V c main_v45 (ix2 (rowOf t.val ht p) q)
    refine congrArg _ (funext fun a => Fin.ext ?_)
    match a with
    | ⟨0, _⟩ => show win3_1.index t (0 : Fin 2) * 8000 + 1 * p.val = t.val * 8000 + p.val; omega
    | ⟨1, _⟩ => show win3_1.index t (1 : Fin 2) * 2 + 1 * q.val = q.val; omega
  · show V c main_v74 (((cfg3.win 2).blk t).view.emb (ix2 p (0 : Fin 1))) = V c main_v74 (ix2 (rowOf t.val ht p) (0 : Fin 1))
    refine congrArg _ (funext fun a => Fin.ext ?_)
    match a with
    | ⟨0, _⟩ => show win3_2.index t (0 : Fin 2) * 8000 + 1 * p.val = t.val * 8000 + p.val; omega
    | ⟨1, _⟩ => show win3_2.index t (1 : Fin 2) * 1 + 1 * 0 = 0; omega
  · show V c main_v75 (((cfg3.win 3).blk t).view.emb (ix2 (0 : Fin 1) q)) = V c main_v75 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 2 + 1 * q.val = q.val; omega

/-- An index of the output array is in point `t`'s block iff each coordinate is in the block's range on its axis. -/
theorem mem_blk3 (t : Fin cfg3.N) (i : S1000000x2.Idx) :
    i ∈ ((cfg3.win 4).blk t).view.set ↔ ∀ a : Fin 2, win3_4.index t a * S8000x2.size a ≤ (i a).val
      ∧ (i a).val < win3_4.index t a * S8000x2.size a + S8000x2.size a := by
  show i ∈ ((View.whole main_v76).slice (win3_4.rect t)).set ↔ _
  rw [View.set_slice_whole, Rect.mem_set_unit]
  exact Iff.rfl

/-- The blocks tile the output: row `r` is in the block of point `r / 8000`. -/
theorem cover3 (i : S1000000x2.Idx) :
    ∃ t : Fin cfg3.N, (cfg3.win 4).flush t = true ∧ i ∈ ((cfg3.win 4).blk t).view.set := by
  have hi0 : (i 0).val < 1000000 := (i 0).isLt
  have hi1 : (i 1).val < 2 := (i 1).isLt
  obtain ⟨t, htv⟩ : ∃ t : Fin cfg3.N, t.val = (i 0).val / 8000 :=
    ⟨⟨(i 0).val / 8000, Nat.lt_of_lt_of_eq (by omega : (i 0).val / 8000 < 125) (N_3.symm : 125 = cfg3.N)⟩, rfl⟩
  obtain ⟨-, -, -, -, -, -, -, -, e40, e41, -⟩ := where3 t
  refine ⟨t, flush3_4 t, ?_⟩
  rw [mem_blk3]
  intro a
  match a with
  | ⟨0, _⟩ =>
    show win3_4.index t (0 : Fin 2) * 8000 ≤ (i 0).val ∧ (i 0).val < win3_4.index t (0 : Fin 2) * 8000 + 8000
    omega
  | ⟨1, _⟩ =>
    show win3_4.index t (1 : Fin 2) * 2 ≤ (i 1).val ∧ (i 1).val < win3_4.index t (1 : Fin 2) * 2 + 2
    omega

/-- THE PROGRAM'S RESULT ARRAY after the call: each row's log-softmax of the combination of the arrays the call found. -/
theorem final3 (c : Dev nD) : (dat3 V c).arrAt 4 cfg3.N
    = logSoftmaxRows (combine (V c main_v73) (V c main_v45) (V c main_v74) (V c main_v75)) :=
  (dat3 V c).arrAt_eq_of_cover 4 _ (fun t _ => flushed3 V c t) cover3

end Cert.KernelIdeal.Whole

end
-- ==== Proof.Graph.lean ====
/-
  THE TWO-LAYER GRAPH CONVOLUTION AS ONE FUNCTION OF THE SIX ARGUMENT ARRAYS.

  The edge list is a [2, E] array of node numbers, row 0 the sources and row 1 the destinations. A node's degree is one
  (its own loop) plus the number of edges that end in it — a scatter-add of ones at the destinations —, and from it come
  the node's two weights, `deg^(-1/2)` and `deg^(-1)`. An edge's weight is the product of its two ends'
  `deg^(-1/2)`. The neighbours' sum of a node array `H` (one row per node) gathers row `src e` of `H` for every edge `e`,
  scales it by the edge's weight, and scatter-adds it into row `dst e`; a negative node number counts from the end (the
  `wrap` below), exactly as jnp indexes. These pieces are written with the very host operations both programs apply, so
  that either program's stretch of such operations IS one of these functions, and they are never opened: what matters is
  only that both programs feed them equal arrays.

  A layer is then `(agg + H · dinv) + b` with `H = X · W` (Rowwise.lean); the network is a rectified layer followed by a
  layer whose rows go through the log-softmax.
-/
import proofs.«173813_j50895362457963_2_alg».proof.Proof.Gen.KernelIdeal
import proofs.«173813_j50895362457963_2_alg».proof.Proof.Rowwise
import Idealize.ShloMosaic.PureOps.Ideal
import Idealize.ShloMosaic.Lib.ValueLayout

noncomputable section

namespace Cert.KernelIdeal.Graph

open Cert.KernelIdeal Cert.KernelIdeal.Facts₀ Cert.Rowwise Idealize.ShloMosaic Idealize.ShloMosaic.TcCoe Idealize.ShloMosaic.ValueIdx

/-- The edge list, an end of every edge, one number per node. -/
abbrev Edges : Type := IVec S2x16000000 32
abbrev Ends : Type := IVec S16000000 32
abbrev PerNode : Type := FVec Ideal S1000000 .f32
/-- One number per edge. -/
abbrev PerEdge : Type := FVec Ideal S16000000 .f32

/-- Row 0 of the edge list: every edge's source. -/
def srcOf (ei : Edges) : Ends :=
  shapeCast S16000000 (extractStridedSlice S1x16000000 ![0, 0] ei slices_S2x16000000_S1x16000000_0_0) shapeCasts_S1x16000000_S16000000

/-- Row 1 of the edge list: every edge's destination. -/
def dstOf (ei : Edges) : Ends :=
  shapeCast S16000000 (extractStridedSlice S1x16000000 ![1, 0] ei slices_S2x16000000_S1x16000000_1_0) shapeCasts_S1x16000000_S16000000

/-- A node's degree with its own loop: one plus the number of edges ending in it. -/
def degOf (dst : Ends) : PerNode :=
  addf (broadcastInDim S1000000 ![] bcast_S_S1000000 (constant (F := Ideal) S_ .f32 0x3F800000#32))
    (Host.scatterAdd (F := Ideal) scatter_S1000000_S16000000x1_S16000000_n_0_0_1
      (broadcastInDim S1000000 ![] bcast_S_S1000000 (constant (F := Ideal) S_ .f32 0x00000000#32))
      (broadcastInDim S16000000x1 ![0] bcast_S16000000_S16000000x1_0 dst)
      (broadcastInDim S16000000 ![] bcast_S_S16000000 (constant (F := Ideal) S_ .f32 0x3F800000#32)))

/-- `deg^(-1/2)`, node by node. -/
def degInvSqrt (dst : Ends) : PerNode := Host.rsqrt (F := Ideal) (degOf dst)

/-- `1 / deg`, node by node. -/
def degInv (dst : Ends) : PerNode :=
  Host.divf (F := Ideal) (broadcastInDim S1000000 ![] bcast_S_S1000000 (constant (F := Ideal) S_ .f32 0x3F800000#32)) (degOf dst)

/-- A negative node number counts from the end. -/
def wrap (e : Ends) : Ends :=
  select (cmpi .slt e (broadcastInDim S16000000 ![] bcast_S_S16000000 (constantI S_ 32 0#32)))
    (addi e (broadcastInDim S16000000 ![] bcast_S_S16000000 (constantI S_ 32 1000000#32))) e

/-- A per-node number read at one end of every edge. -/
def atEnds (v : PerNode) (e : Ends) : PerEdge :=
  Host.gather gather_S1000000_S16000000x1_S16000000_n_0_n_n_0_1_1 v
    (broadcastInDim S16000000x1 ![0] bcast_S16000000_S16000000x1_0 (wrap e))

/-- An edge's weight: the product of its two ends' `deg^(-1/2)`. -/
def edgeWeight (src dst : Ends) (dis : PerNode) : PerEdge :=
  mulf (atEnds dis src) (atEnds dis dst)

/-- THE NEIGHBOURS' SUM of a node array of width 4: row `src e` scaled by the edge's weight, added into row `dst e`. -/
def neighbours4 (src dst : Ends) (dis : PerNode) (h : FVec Ideal S1000000x4 .f32) : FVec Ideal S1000000x4 .f32 :=
  Host.scatterAdd (F := Ideal) scatter_S1000000x4_S16000000x1_S16000000x4_1_0_0_1
    (broadcastInDim S1000000x4 ![] bcast_S_S1000000x4 (constant (F := Ideal) S_ .f32 0x00000000#32))
    (broadcastInDim S16000000x1 ![0] bcast_S16000000_S16000000x1_0 dst)
    (mulf (Host.gather gather_S1000000x4_S16000000x1_S16000000x4_1_0_n_n_0_1_14 h
        (broadcastInDim S16000000x1 ![0] bcast_S16000000_S16000000x1_0 (wrap src)))
      (broadcastInDim S16000000x4 ![0, 1] bcast_S16000000x1_S16000000x4_0_1
        (broadcastInDim S16000000x1 ![0] bcast_S16000000_S16000000x1_0 (edgeWeight src dst dis))))

/-- The same at width 2. -/
def neighbours2 (src dst : Ends) (dis : PerNode) (h : FVec Ideal S1000000x2 .f32) : FVec Ideal S1000000x2 .f32 :=
  Host.scatterAdd (F := Ideal) scatter_S1000000x2_S16000000x1_S16000000x2_1_0_0_1
    (broadcastInDim S1000000x2 ![] bcast_S_S1000000x2 (constant (F := Ideal) S_ .f32 0x00000000#32))
    (broadcastInDim S16000000x1 ![0] bcast_S16000000_S16000000x1_0 dst)
    (mulf (Host.gather gather_S1000000x2_S16000000x1_S16000000x2_1_0_n_n_0_1_12 h
        (broadcastInDim S16000000x1 ![0] bcast_S16000000_S16000000x1_0 (wrap src)))
      (broadcastInDim S16000000x2 ![0, 1] bcast_S16000000x1_S16000000x2_0_1
        (broadcastInDim S16000000x1 ![0] bcast_S16000000_S16000000x1_0 (edgeWeight src dst dis))))

/-- A per-node number as a column, and a bias as a row. -/
def column (v : PerNode) : FVec Ideal S1000000x1 .f32 := shapeCast S1000000x1 v shapeCasts_S1000000_S1000000x1
def biasRow4 (b : FVec Ideal S4 .f32) : FVec Ideal S1x4 .f32 := shapeCast S1x4 b shapeCasts_S4_S1x4
def biasRow2 (b : FVec Ideal S2 .f32) : FVec Ideal S1x2 .f32 := shapeCast S1x2 b shapeCasts_S2_S1x2

/-- The column's entry of row `p` is the node's number; the row's entry of column `q` is the feature's. -/
theorem column_apply (v : PerNode) (p : Fin 1000000) : column v (ix2 p (0 : Fin 1)) = v (ix1 p) :=
  shapeCast_a_a1_apply v shapeCasts_S1000000_S1000000x1 p 0
theorem biasRow4_apply (b : FVec Ideal S4 .f32) (q : Fin 4) : biasRow4 b (ix2 (0 : Fin 1) q) = b (ix1 q) :=
  shapeCast_a_1a_apply b shapeCasts_S4_S1x4 0 q
theorem biasRow2_apply (b : FVec Ideal S2 .f32) (q : Fin 2) : biasRow2 b (ix2 (0 : Fin 1) q) = b (ix1 q) :=
  shapeCast_a_1a_apply b shapeCasts_S2_S1x2 0 q

/-- THE FIRST LAYER: the rectified `(agg + H · dinv) + b1` with `H = X · W1`. -/
def layerOne (x : FVec Ideal S1000000x3 .f32) (ei : Edges) (w1 : FVec Ideal S3x4 .f32) (b1 : FVec Ideal S4 .f32) :
    FVec Ideal S1000000x4 .f32 :=
  relu (combine (neighbours4 (srcOf ei) (dstOf ei) (degInvSqrt (dstOf ei)) (rowDot x w1)) (rowDot x w1)
    (column (degInv (dstOf ei))) (biasRow4 b1))

/-- THE NETWORK: the second layer on the first one's output, each row through the log-softmax. -/
def network (x : FVec Ideal S1000000x3 .f32) (ei : Edges) (w1 : FVec Ideal S3x4 .f32) (b1 : FVec Ideal S4 .f32)
    (w2 : FVec Ideal S4x2 .f32) (b2 : FVec Ideal S2 .f32) : FVec Ideal S1000000x2 .f32 :=
  logSoftmaxRows (combine
    (neighbours2 (srcOf ei) (dstOf ei) (degInvSqrt (dstOf ei)) (rowDot (layerOne x ei w1 b1) w2))
    (rowDot (layerOne x ei w1 b1) w2) (column (degInv (dstOf ei))) (biasRow2 b2))

end Cert.KernelIdeal.Graph

end
-- ==== Proof.Boundaries.lean ====
/-
  WHAT THE BUFFERS HOLD AT EACH BOUNDARY OF THE KERNEL PROGRAM, down to its result.

  Following the chain of contents `W0, …, W7` (KernelRun.lean) from the launch: the first stretch of host operations
  leaves the edges' two ends and the nodes' two weights; the first product leaves `X · W1` (Arrays.lean); the second
  stretch leaves the neighbours' sum of it, the weight `1 / deg` as a column and the bias as a row; the first combination
  leaves the first layer's output; the second product, stretch and combination repeat this one layer down. A stretch of
  host operations or a call changes only the buffers it writes, so whatever an earlier segment left is still there when
  a later one reads it. At the end the result buffer holds the network (Graph.lean) of the six argument arrays.
-/
import proofs.«173813_j50895362457963_2_alg».proof.Proof.Gen.KernelIdeal.Frame
import proofs.«173813_j50895362457963_2_alg».proof.Proof.Arrays
import proofs.«173813_j50895362457963_2_alg».proof.Proof.Graph
import Idealize.ShloMosaic.Lib.StableHlo.Run

set_option maxRecDepth 16384

noncomputable section

namespace Cert.KernelIdeal.Whole

open Cert.KernelIdeal Cert.KernelIdeal.Gen Cert.KernelIdeal.Graph Cert.Rowwise
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The six argument arrays as launched. -/
abbrev aX : FVec Ideal S1000000x3 .f32 := m ((c : Thread nD τ).loc main_arg0)
abbrev aE : Edges := m ((c : Thread nD τ).loc main_arg1)
abbrev aW1 : FVec Ideal S3x4 .f32 := m ((c : Thread nD τ).loc main_arg2)
abbrev aB1 : FVec Ideal S4 .f32 := m ((c : Thread nD τ).loc main_arg3)
abbrev aW2 : FVec Ideal S4x2 .f32 := m ((c : Thread nD τ).loc main_arg4)
abbrev aB2 : FVec Ideal S2 .f32 := m ((c : Thread nD τ).loc main_arg5)

/-- None of a stretch's operations writes the buffer: one inequality of references per operation. -/
local macro "untouched" : tactic => `(tactic| (
  simp only [hostOps0, hostOps1, hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## After the first stretch: the edges' ends and the nodes' weights; the arguments untouched -/

theorem W1_keeps_arg0 : W1 m ρ c (Proc.devRef .tc main_arg0) = W0 m ρ c (Proc.devRef .tc main_arg0) :=
  StableHlo.after_of_forall_not_mem (b := Proc.devRef .tc main_arg0) _ _ (List.forall_iff_forall_mem.mp (by untouched))
theorem W1_keeps_arg2 : W1 m ρ c (Proc.devRef .tc main_arg2) = W0 m ρ c (Proc.devRef .tc main_arg2) :=
  StableHlo.after_of_forall_not_mem (b := Proc.devRef .tc main_arg2) _ _ (List.forall_iff_forall_mem.mp (by untouched))
theorem W1_keeps_arg3 : W1 m ρ c (Proc.devRef .tc main_arg3) = W0 m ρ c (Proc.devRef .tc main_arg3) :=
  StableHlo.after_of_forall_not_mem (b := Proc.devRef .tc main_arg3) _ _ (List.forall_iff_forall_mem.mp (by untouched))
theorem W1_keeps_arg4 : W1 m ρ c (Proc.devRef .tc main_arg4) = W0 m ρ c (Proc.devRef .tc main_arg4) :=
  StableHlo.after_of_forall_not_mem (b := Proc.devRef .tc main_arg4) _ _ (List.forall_iff_forall_mem.mp (by untouched))
theorem W1_keeps_arg5 : W1 m ρ c (Proc.devRef .tc main_arg5) = W0 m ρ c (Proc.devRef .tc main_arg5) :=
  StableHlo.after_of_forall_not_mem (b := Proc.devRef .tc main_arg5) _ _ (List.forall_iff_forall_mem.mp (by untouched))

theorem W1_src : W1 m ρ c (Proc.devRef .tc main_v1) = srcOf (aE m c) := by
  show StableHlo.after hostOps0 (W0 m ρ c) (Proc.devRef .tc main_v1) = _
  after_results; rfl
theorem W1_dst : W1 m ρ c (Proc.devRef .tc main_v3) = dstOf (aE m c) := by
  show StableHlo.after hostOps0 (W0 m ρ c) (Proc.devRef .tc main_v3) = _
  after_results; rfl
theorem W1_dis : W1 m ρ c (Proc.devRef .tc main_v10) = degInvSqrt (dstOf (aE m c)) := by
  show StableHlo.after hostOps0 (W0 m ρ c) (Proc.devRef .tc main_v10) = _
  after_results; rfl
theorem W1_dinv : W1 m ρ c (Proc.devRef .tc main_v12) = degInv (dstOf (aE m c)) := by
  show StableHlo.after hostOps0 (W0 m ρ c) (Proc.devRef .tc main_v12) = _
  after_results; rfl

/-! ## After the first product -/

theorem W2_h1 : W2 m ρ c (Proc.devRef .tc main_v13) = rowDot (aX m c) (aW1 m c) := by
  refine (W2_arr m ρ c 2).trans ((final0 (V1 m ρ) c).trans ?_)
  show rowDot (W1 m ρ c (Proc.devRef .tc main_arg0)) (W1 m ρ c (Proc.devRef .tc main_arg2)) = _
  rw [W1_keeps_arg0, W1_keeps_arg2]
theorem W2_src : W2 m ρ c (Proc.devRef .tc main_v1) = srcOf (aE m c) := (W2_of_ne m ρ c main_v1 (by decide)).trans (W1_src m ρ c)
theorem W2_dst : W2 m ρ c (Proc.devRef .tc main_v3) = dstOf (aE m c) := (W2_of_ne m ρ c main_v3 (by decide)).trans (W1_dst m ρ c)
theorem W2_dis : W2 m ρ c (Proc.devRef .tc main_v10) = degInvSqrt (dstOf (aE m c)) := (W2_of_ne m ρ c main_v10 (by decide)).trans (W1_dis m ρ c)
theorem W2_dinv : W2 m ρ c (Proc.devRef .tc main_v12) = degInv (dstOf (aE m c)) := (W2_of_ne m ρ c main_v12 (by decide)).trans (W1_dinv m ρ c)
theorem W2_b1 : W2 m ρ c (Proc.devRef .tc main_arg3) = aB1 m c := (W2_of_ne m ρ c main_arg3 (by decide)).trans (W1_keeps_arg3 m ρ c)
theorem W2_w2 : W2 m ρ c (Proc.devRef .tc main_arg4) = aW2 m c := (W2_of_ne m ρ c main_arg4 (by decide)).trans (W1_keeps_arg4 m ρ c)
theorem W2_b2 : W2 m ρ c (Proc.devRef .tc main_arg5) = aB2 m c := (W2_of_ne m ρ c main_arg5 (by decide)).trans (W1_keeps_arg5 m ρ c)

/-! ## After the second stretch: the first layer's neighbours' sum, the weight column, the bias row -/

theorem W3_keeps_v1 : W3 m ρ c (Proc.devRef .tc main_v1) = W2 m ρ c (Proc.devRef .tc main_v1) :=
  StableHlo.after_of_forall_not_mem (b := Proc.devRef .tc main_v1) _ _ (List.forall_iff_forall_mem.mp (by untouched))
theorem W3_keeps_v3 : W3 m ρ c (Proc.devRef .tc main_v3) = W2 m ρ c (Proc.devRef .tc main_v3) :=
  StableHlo.after_of_forall_not_mem (b := Proc.devRef .tc main_v3) _ _ (List.forall_iff_forall_mem.mp (by untouched))
theorem W3_keeps_v10 : W3 m ρ c (Proc.devRef .tc main_v10) = W2 m ρ c (Proc.devRef .tc main_v10) :=
  StableHlo.after_of_forall_not_mem (b := Proc.devRef .tc main_v10) _ _ (List.forall_iff_forall_mem.mp (by untouched))
theorem W3_keeps_v12 : W3 m ρ c (Proc.devRef .tc main_v12) = W2 m ρ c (Proc.devRef .tc main_v12) :=
  StableHlo.after_of_forall_not_mem (b := Proc.devRef .tc main_v12) _ _ (List.forall_iff_forall_mem.mp (by untouched))
theorem W3_keeps_v13 : W3 m ρ c (Proc.devRef .tc main_v13) = W2 m ρ c (Proc.devRef .tc main_v13) :=
  StableHlo.after_of_forall_not_mem (b := Proc.devRef .tc main_v13) _ _ (List.forall_iff_forall_mem.mp (by untouched))
theorem W3_keeps_arg4 : W3 m ρ c (Proc.devRef .tc main_arg4) = W2 m ρ c (Proc.devRef .tc main_arg4) :=
  StableHlo.after_of_forall_not_mem (b := Proc.devRef .tc main_arg4) _ _ (List.forall_iff_forall_mem.mp (by untouched))
theorem W3_keeps_arg5 : W3 m ρ c (Proc.devRef .tc main_arg5) = W2 m ρ c (Proc.devRef .tc main_arg5) :=
  StableHlo.after_of_forall_not_mem (b := Proc.devRef .tc main_arg5) _ _ (List.forall_iff_forall_mem.mp (by untouched))

theorem W3_agg1 : W3 m ρ c (Proc.devRef .tc main_v41)
    = neighbours4 (srcOf (aE m c)) (dstOf (aE m c)) (degInvSqrt (dstOf (aE m c))) (rowDot (aX m c) (aW1 m c)) := by
  have e : W3 m ρ c (Proc.devRef .tc main_v41)
      = neighbours4 (W2 m ρ c (Proc.devRef .tc main_v1)) (W2 m ρ c (Proc.devRef .tc main_v3))
          (W2 m ρ c (Proc.devRef .tc main_v10)) (W2 m ρ c (Proc.devRef .tc main_v13)) := by
    show StableHlo.after hostOps1 (W2 m ρ c) (Proc.devRef .tc main_v41) = _
    after_results_simp <;> rfl
  rw [e, W2_src, W2_dst, W2_dis, W2_h1]
theorem W3_dcol : W3 m ρ c (Proc.devRef .tc main_v42) = column (degInv (dstOf (aE m c))) := by
  have e : W3 m ρ c (Proc.devRef .tc main_v42) = column (W2 m ρ c (Proc.devRef .tc main_v12)) := by
    show StableHlo.after hostOps1 (W2 m ρ c) (Proc.devRef .tc main_v42) = _
    after_results_simp <;> rfl
  rw [e, W2_dinv]
theorem W3_brow : W3 m ρ c (Proc.devRef .tc main_v43) = biasRow4 (aB1 m c) := by
  have e : W3 m ρ c (Proc.devRef .tc main_v43) = biasRow4 (W2 m ρ c (Proc.devRef .tc main_arg3)) := by
    show StableHlo.after hostOps1 (W2 m ρ c) (Proc.devRef .tc main_v43) = _
    after_results_simp <;> rfl
  rw [e, W2_b1]
theorem W3_h1 : W3 m ρ c (Proc.devRef .tc main_v13) = rowDot (aX m c) (aW1 m c) := (W3_keeps_v13 m ρ c).trans (W2_h1 m ρ c)

/-! ## After the first combination: the first layer's output -/

theorem W4_out1 : W4 m ρ c (Proc.devRef .tc main_v44) = layerOne (aX m c) (aE m c) (aW1 m c) (aB1 m c) := by
  refine (W4_arr m ρ c 4).trans ((final1 (V3 m ρ) c).trans ?_)
  show relu (combine (W3 m ρ c (Proc.devRef .tc main_v41)) (W3 m ρ c (Proc.devRef .tc main_v13))
    (W3 m ρ c (Proc.devRef .tc main_v42)) (W3 m ρ c (Proc.devRef .tc main_v43))) = _
  rw [W3_agg1, W3_h1, W3_dcol, W3_brow]
  rfl
theorem W4_w2 : W4 m ρ c (Proc.devRef .tc main_arg4) = aW2 m c :=
  (W4_of_ne m ρ c main_arg4 (by decide)).trans ((W3_keeps_arg4 m ρ c).trans (W2_w2 m ρ c))

/-! ## After the second product -/

theorem W5_h2 : W5 m ρ c (Proc.devRef .tc main_v45) = rowDot (layerOne (aX m c) (aE m c) (aW1 m c) (aB1 m c)) (aW2 m c) := by
  refine (W5_arr m ρ c 2).trans ((final2 (V4 m ρ) c).trans ?_)
  show rowDot (W4 m ρ c (Proc.devRef .tc main_v44)) (W4 m ρ c (Proc.devRef .tc main_arg4)) = _
  rw [W4_out1, W4_w2]
theorem W5_src : W5 m ρ c (Proc.devRef .tc main_v1) = srcOf (aE m c) :=
  (W5_of_ne m ρ c main_v1 (by decide)).trans ((W4_of_ne m ρ c main_v1 (by decide)).trans ((W3_keeps_v1 m ρ c).trans (W2_src m ρ c)))
theorem W5_dst : W5 m ρ c (Proc.devRef .tc main_v3) = dstOf (aE m c) :=
  (W5_of_ne m ρ c main_v3 (by decide)).trans ((W4_of_ne m ρ c main_v3 (by decide)).trans ((W3_keeps_v3 m ρ c).trans (W2_dst m ρ c)))
theorem W5_dis : W5 m ρ c (Proc.devRef .tc main_v10) = degInvSqrt (dstOf (aE m c)) :=
  (W5_of_ne m ρ c main_v10 (by decide)).trans ((W4_of_ne m ρ c main_v10 (by decide)).trans ((W3_keeps_v10 m ρ c).trans (W2_dis m ρ c)))
theorem W5_dinv : W5 m ρ c (Proc.devRef .tc main_v12) = degInv (dstOf (aE m c)) :=
  (W5_of_ne m ρ c main_v12 (by decide)).trans ((W4_of_ne m ρ c main_v12 (by decide)).trans ((W3_keeps_v12 m ρ c).trans (W2_dinv m ρ c)))
theorem W5_b2 : W5 m ρ c (Proc.devRef .tc main_arg5) = aB2 m c :=
  (W5_of_ne m ρ c main_arg5 (by decide)).trans ((W4_of_ne m ρ c main_arg5 (by decide)).trans ((W3_keeps_arg5 m ρ c).trans (W2_b2 m ρ c)))

/-! ## After the third stretch: the second layer's neighbours' sum, the weight column, the bias row -/

theorem W6_keeps_v45 : W6 m ρ c (Proc.devRef .tc main_v45) = W5 m ρ c (Proc.devRef .tc main_v45) :=
  StableHlo.after_of_forall_not_mem (b := Proc.devRef .tc main_v45) _ _ (List.forall_iff_forall_mem.mp (by untouched))

theorem W6_agg2 : W6 m ρ c (Proc.devRef .tc main_v73)
    = neighbours2 (srcOf (aE m c)) (dstOf (aE m c)) (degInvSqrt (dstOf (aE m c)))
        (rowDot (layerOne (aX m c) (aE m c) (aW1 m c) (aB1 m c)) (aW2 m c)) := by
  have e : W6 m ρ c (Proc.devRef .tc main_v73)
      = neighbours2 (W5 m ρ c (Proc.devRef .tc main_v1)) (W5 m ρ c (Proc.devRef .tc main_v3))
          (W5 m ρ c (Proc.devRef .tc main_v10)) (W5 m ρ c (Proc.devRef .tc main_v45)) := by
    show StableHlo.after hostOps3 (W5 m ρ c) (Proc.devRef .tc main_v73) = _
    after_results_simp <;> rfl
  rw [e, W5_src, W5_dst, W5_dis, W5_h2]
theorem W6_dcol : W6 m ρ c (Proc.devRef .tc main_v74) = column (degInv (dstOf (aE m c))) := by
  have e : W6 m ρ c (Proc.devRef .tc main_v74) = column (W5 m ρ c (Proc.devRef .tc main_v12)) := by
    show StableHlo.after hostOps3 (W5 m ρ c) (Proc.devRef .tc main_v74) = _
    after_results_simp <;> rfl
  rw [e, W5_dinv]
theorem W6_brow : W6 m ρ c (Proc.devRef .tc main_v75) = biasRow2 (aB2 m c) := by
  have e : W6 m ρ c (Proc.devRef .tc main_v75) = biasRow2 (W5 m ρ c (Proc.devRef .tc main_arg5)) := by
    show StableHlo.after hostOps3 (W5 m ρ c) (Proc.devRef .tc main_v75) = _
    after_results_simp <;> rfl
  rw [e, W5_b2]
theorem W6_h2 : W6 m ρ c (Proc.devRef .tc main_v45) = rowDot (layerOne (aX m c) (aE m c) (aW1 m c) (aB1 m c)) (aW2 m c) :=
  (W6_keeps_v45 m ρ c).trans (W5_h2 m ρ c)

/-! ## After the second combination: the result -/

/-- THE RESULT BUFFER at the last boundary holds the network of the six argument arrays. -/
theorem W7_result : W7 m ρ c (Proc.devRef .tc main_v76)
    = network (aX m c) (aE m c) (aW1 m c) (aB1 m c) (aW2 m c) (aB2 m c) := by
  refine (W7_arr m ρ c 4).trans ((final3 (V6 m ρ) c).trans ?_)
  show logSoftmaxRows (combine (W6 m ρ c (Proc.devRef .tc main_v73)) (W6 m ρ c (Proc.devRef .tc main_v45))
    (W6 m ρ c (Proc.devRef .tc main_v74)) (W6 m ρ c (Proc.devRef .tc main_v75))) = _
  rw [W6_agg2, W6_h2, W6_dcol, W6_brow]
  rfl

end Cert.KernelIdeal.Whole

end
-- ==== Proof.RefStages.lean ====
/-
  THE REFERENCE'S STRAIGHT LINE READ IN FIVE STRETCHES.

  The reference's result is the fold of its 121 host operations over the launch contents. Read as ONE term of the
  arguments that fold is a tree in which every value consumed twice (a product feeding both the gather and the
  self-loop term, the logits feeding both the row maximum and the shift) is written out twice, level after level; read
  in stretches it is small: the contents after the first `n` operations are kept as they are, and each stretch — the
  prologue and first product (18 operations), the first layer (45), the second product (1), the second layer's
  neighbours' sum (35), the second layer's combination and log-softmax (22) — is read over the contents the previous
  one left. Each stretch lands on the generated stage function of the arguments (`val_main_vN`). The two outlined functions
  (the rectifier, the log-softmax) carry their values through transports along equalities of buffer types that hold by
  computation; these are removed one by one (`cast_eq`) before the two sides are compared.
-/
import proofs.«173813_j50895362457963_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.ShloMosaic.StableHlo
open Idealize.SL.Sem

/-- The contents after two lines in a row are the second line's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt Ideal) ℓ) (c : Dev nD)

/-- The six argument arrays as launched. -/
abbrev aX : (⟨S1000000x3, .f32⟩ : BufTy).Contents (Elt Ideal) := m ((c.tc : Thread nD τ).loc main_arg0)
abbrev aE : (⟨S2x16000000, .i32⟩ : BufTy).Contents (Elt Ideal) := m ((c.tc : Thread nD τ).loc main_arg1)
abbrev aW1 : (⟨S3x4, .f32⟩ : BufTy).Contents (Elt Ideal) := m ((c.tc : Thread nD τ).loc main_arg2)
abbrev aB1 : (⟨S4, .f32⟩ : BufTy).Contents (Elt Ideal) := m ((c.tc : Thread nD τ).loc main_arg3)
abbrev aW2 : (⟨S4x2, .f32⟩ : BufTy).Contents (Elt Ideal) := m ((c.tc : Thread nD τ).loc main_arg4)
abbrev aB2 : (⟨S2, .f32⟩ : BufTy).Contents (Elt Ideal) := m ((c.tc : Thread nD τ).loc main_arg5)

/-- The device's contents after the first `n` operations. -/
def upTo (n : Nat) : Valuation τ sig (Elt Ideal) :=
  after ((ValueP.ops (F := Ideal)).take n) (launchContents m c)

/-- `b` more operations, over what the first `a` left. -/
theorem upTo_add (a b : Nat) :
    upTo m c (a + b) = after (((ValueP.ops (F := Ideal)).drop a).take b) (upTo m c a) := by
  unfold upTo
  rw [List.take_add, after_append]

/-- All 121 of them: the fold the run states. -/
theorem upTo_all : upTo m c 121 = after (ValueP.ops (F := Ideal)) (launchContents m c) := by
  unfold upTo
  rw [List.take_of_length_le (by decide)]

/-! ## The prologue and the first product: operations 0 … 17 -/

theorem src18 : upTo m c 18 (Proc.devRef .tc main_v1) = val_main_v1 (F := Ideal) (aE m c) := by
  unfold upTo; simp only [ValueP.ops, List.take_succ_cons, List.take_zero, List.drop_succ_cons, List.drop_zero]
  after_results_simp <;> rfl
theorem dst18 : upTo m c 18 (Proc.devRef .tc main_v3) = val_main_v3 (F := Ideal) (aE m c) := by
  unfold upTo; simp only [ValueP.ops, List.take_succ_cons, List.take_zero, List.drop_succ_cons, List.drop_zero]
  after_results_simp <;> rfl
theorem dis18 : upTo m c 18 (Proc.devRef .tc main_v10) = val_main_v10 (F := Ideal) (aE m c) := by
  unfold upTo; simp only [ValueP.ops, List.take_succ_cons, List.take_zero, List.drop_succ_cons, List.drop_zero]
  after_results_simp <;> rfl
theorem dinv18 : upTo m c 18 (Proc.devRef .tc main_v12) = val_main_v12 (F := Ideal) (aE m c) := by
  unfold upTo; simp only [ValueP.ops, List.take_succ_cons, List.take_zero, List.drop_succ_cons, List.drop_zero]
  after_results_simp <;> rfl
theorem h18 : upTo m c 18 (Proc.devRef .tc main_v13) = val_main_v13 (F := Ideal) (aX m c) (aW1 m c) := by
  unfold upTo; simp only [ValueP.ops, List.take_succ_cons, List.take_zero, List.drop_succ_cons, List.drop_zero]
  after_results_simp <;> rfl
theorem b18 : upTo m c 18 (Proc.devRef .tc main_arg3) = aB1 m c := by
  unfold upTo; simp only [ValueP.ops, List.take_succ_cons, List.take_zero, List.drop_succ_cons, List.drop_zero]
  after_results_simp <;> rfl

/-! ## The first layer: operations 18 … 62 -/

theorem out63 : upTo m c 63 (Proc.devRef .tc main_v49)
    = val_main_v49 (F := Ideal) (aX m c) (aE m c) (aW1 m c) (aB1 m c) := by
  rw [show (63 : Nat) = 18 + 45 from rfl, upTo_add]
  simp only [ValueP.ops, List.take_succ_cons, List.take_zero, List.drop_succ_cons, List.drop_zero]
  after_results_simp
  rw [src18, dst18, dis18, dinv18, h18, b18]
  simp only [TRef.toBuf, TRef.ofBuf]
  repeat rw [cast_eq]
  rfl
theorem w63 : upTo m c 63 (Proc.devRef .tc main_arg4) = aW2 m c := by
  unfold upTo; simp only [ValueP.ops, List.take_succ_cons, List.take_zero, List.drop_succ_cons, List.drop_zero]
  after_results_simp <;> rfl

/-! ## The second product: operation 63 -/

theorem h64 : upTo m c 64 (Proc.devRef .tc main_v50)
    = val_main_v50 (F := Ideal) (aX m c) (aE m c) (aW1 m c) (aB1 m c) (aW2 m c) := by
  rw [show (64 : Nat) = 63 + 1 from rfl, upTo_add]
  simp only [ValueP.ops, List.take_succ_cons, List.take_zero, List.drop_succ_cons, List.drop_zero]
  after_results_simp
  rw [out63, w63]
  rfl
theorem src64 : upTo m c 64 (Proc.devRef .tc main_v1) = val_main_v1 (F := Ideal) (aE m c) := by
  unfold upTo; simp only [ValueP.ops, List.take_succ_cons, List.take_zero, List.drop_succ_cons, List.drop_zero]
  after_results_simp <;> rfl
theorem dst64 : upTo m c 64 (Proc.devRef .tc main_v3) = val_main_v3 (F := Ideal) (aE m c) := by
  unfold upTo; simp only [ValueP.ops, List.take_succ_cons, List.take_zero, List.drop_succ_cons, List.drop_zero]
  after_results_simp <;> rfl
theorem dis64 : upTo m c 64 (Proc.devRef .tc main_v10) = val_main_v10 (F := Ideal) (aE m c) := by
  unfold upTo; simp only [ValueP.ops, List.take_succ_cons, List.take_zero, List.drop_succ_cons, List.drop_zero]
  after_results_simp <;> rfl

/-! ## The second layer's neighbours' sum: operations 64 … 98 -/

theorem agg99 : upTo m c 99 (Proc.devRef .tc main_v78)
    = val_main_v78 (F := Ideal) (aX m c) (aE m c) (aW1 m c) (aB1 m c) (aW2 m c) := by
  rw [show (99 : Nat) = 64 + 35 from rfl, upTo_add]
  simp only [ValueP.ops, List.take_succ_cons, List.take_zero, List.drop_succ_cons, List.drop_zero]
  after_results_simp
  rw [src64, dst64, dis64, h64]
  rfl
theorem h99 : upTo m c 99 (Proc.devRef .tc main_v50)
    = val_main_v50 (F := Ideal) (aX m c) (aE m c) (aW1 m c) (aB1 m c) (aW2 m c) := by
  rw [show (99 : Nat) = 64 + 35 from rfl, upTo_add]
  simp only [ValueP.ops, List.take_succ_cons, List.take_zero, List.drop_succ_cons, List.drop_zero]
  after_results_simp
  exact h64 m c
theorem dinv99 : upTo m c 99 (Proc.devRef .tc main_v12) = val_main_v12 (F := Ideal) (aE m c) := by
  unfold upTo; simp only [ValueP.ops, List.take_succ_cons, List.take_zero, List.drop_succ_cons, List.drop_zero]
  after_results_simp <;> rfl
theorem b99 : upTo m c 99 (Proc.devRef .tc main_arg5) = aB2 m c := by
  unfold upTo; simp only [ValueP.ops, List.take_succ_cons, List.take_zero, List.drop_succ_cons, List.drop_zero]
  after_results_simp <;> rfl

/-! ## The second layer's combination and the log-softmax: operations 99 … 120 -/

/-- THE FOLD of the whole line at the result buffer is the last stage of the arguments. -/
theorem result : after (ValueP.ops (F := Ideal)) (launchContents m c) (Proc.devRef .tc main_v86)
    = val_main_v86 (F := Ideal) (aX m c) (aE m c) (aW1 m c) (aB1 m c) (aW2 m c) (aB2 m c) := by
  rw [← upTo_all, show (121 : Nat) = 99 + 22 from rfl, upTo_add]
  simp only [ValueP.ops, List.take_succ_cons, List.take_zero, List.drop_succ_cons, List.drop_zero]
  after_results_simp
  rw [agg99, h99, dinv99, b99]
  simp only [TRef.toBuf, TRef.ofBuf]
  repeat rw [cast_eq]
  rfl

end Cert.ReferenceIdeal.Stages

end
-- ==== Proof.RefNetwork.lean ====
/-
  THE REFERENCE PROGRAM COMPUTES THE SAME NETWORK.

  The reference is one straight line of host operations. Read one operation at a time (the generated stages
  `val_main_vN`, each a function of the arguments), its stretches that find the edges' ends, the nodes' weights and the
  neighbours' sums are, operation for operation, the functions of Graph.lean; its two `dot_general`s are `rowDot`; its
  `(agg + H · dinv) + b`, where the weight and the bias are broadcast to the whole array before the arithmetic, is
  `combine` of the weight as a column and the bias as a row; its outlined `relu` is `relu`; and its outlined
  `log_softmax` — the row maximum by a reduce from minus infinity, one more maximum with minus infinity (which changes
  nothing), the shifted exponentials' sum from zero, the logarithm — is `logSoftmaxRows`. So its result is `network`
  of its arguments.
-/
import proofs.«173813_j50895362457963_2_alg».proof.Proof.RefRead
import proofs.«173813_j50895362457963_2_alg».proof.Proof.Graph

noncomputable section

open scoped BigOperators

namespace Cert.ReferenceIdeal.Net

open Cert.ReferenceIdeal Cert.ReferenceIdeal.Gen Cert.ReferenceIdeal.ReadP Cert.Rowwise Cert.KernelIdeal.Graph
open Idealize.ShloMosaic Idealize.ShloMosaic.TcCoe Idealize.ShloMosaic.ValueIdx

variable (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x2, .f32⟩ : BufTy).Contents (Elt Ideal)) (x5 : (⟨S2, .f32⟩ : BufTy).Contents (Elt Ideal))

/-! ## The edges' ends, the nodes' weights, the neighbours' sums: the same host operations -/

theorem ends_src : val_main_v1 (F := Ideal) x1 = srcOf x1 := rfl
theorem ends_dst : val_main_v3 (F := Ideal) x1 = dstOf x1 := rfl
theorem weight_invSqrt : val_main_v10 (F := Ideal) x1 = degInvSqrt (dstOf x1) := rfl
theorem weight_inv : val_main_v12 (F := Ideal) x1 = degInv (dstOf x1) := rfl

theorem sum_layer1 : val_main_v41 (F := Ideal) x0 x1 x2
    = neighbours4 (srcOf x1) (dstOf x1) (degInvSqrt (dstOf x1)) (val_main_v13 (F := Ideal) x0 x2) := rfl

theorem sum_layer2 : val_main_v78 (F := Ideal) x0 x1 x2 x3 x4
    = neighbours2 (srcOf x1) (dstOf x1) (degInvSqrt (dstOf x1)) (val_main_v50 (F := Ideal) x0 x1 x2 x3 x4) := rfl

/-! ## The first layer -/

theorem product1 : val_main_v13 (F := Ideal) x0 x2 = rowDot x0 x2 := by
  funext i
  obtain ⟨p, n, rfl⟩ : ∃ (p : Fin 1000000) (n : Fin 4), i = ix2 p n := ⟨i 0, i 1, eq_ix2 i⟩
  rw [val_main_v13_apply, rowDot_ix2]
  refine Finset.sum_congr rfl fun k _ => ?_
  have el : lidx_main_v13 (ix2 p n) k = ix2 p k := funext fun a => by match a with | ⟨0, _⟩ => rfl | ⟨1, _⟩ => rfl
  have er : ridx_main_v13 (ix2 p n) k = ix2 k n := funext fun a => by match a with | ⟨0, _⟩ => rfl | ⟨1, _⟩ => rfl
  rw [el, er]

theorem layer1 : val_main_v49 (F := Ideal) x0 x1 x2 x3 = layerOne x0 x1 x2 x3 := by
  funext i
  obtain ⟨p, q, rfl⟩ : ∃ (p : Fin 1000000) (q : Fin 4), i = ix2 p q := ⟨i 0, i 1, eq_ix2 i⟩
  rw [val_main_v49_apply, val_main_v48_apply, val_main_v45_apply, val_main_v44_apply, val_main_v43_apply, val_main_v42_apply,
    val_main_v47_apply, val_main_v46_apply, val_main_call0_v0_apply, val_main_call0_cst_apply, sum_layer1, product1, weight_inv]
  have e1 : idx_main_v42 (idx_main_v43 (ix2 p q)) = ix1 p := funext fun a => by match a with | ⟨0, _⟩ => rfl
  have e2 : idx_main_v46 (idx_main_v47 (ix2 p q)) = ix1 q := funext fun a => by match a with | ⟨0, _⟩ => rfl
  rw [e1, e2, ← column_apply (degInv (dstOf x1)) p, ← biasRow4_apply x3 q]
  rfl

/-! ## The second layer -/

theorem product2 : val_main_v50 (F := Ideal) x0 x1 x2 x3 x4 = rowDot (layerOne x0 x1 x2 x3) x4 := by
  funext i
  obtain ⟨p, n, rfl⟩ : ∃ (p : Fin 1000000) (n : Fin 2), i = ix2 p n := ⟨i 0, i 1, eq_ix2 i⟩
  rw [val_main_v50_apply, layer1, rowDot_ix2]
  refine Finset.sum_congr rfl fun k _ => ?_
  have el : lidx_main_v50 (ix2 p n) k = ix2 p k := funext fun a => by match a with | ⟨0, _⟩ => rfl | ⟨1, _⟩ => rfl
  have er : ridx_main_v50 (ix2 p n) k = ix2 k n := funext fun a => by match a with | ⟨0, _⟩ => rfl | ⟨1, _⟩ => rfl
  rw [el, er]

/-- Before the log-softmax: `(agg + H · dinv) + b2`. -/
theorem logits : val_main_v85 (F := Ideal) x0 x1 x2 x3 x4 x5
    = combine (val_main_v78 (F := Ideal) x0 x1 x2 x3 x4) (val_main_v50 (F := Ideal) x0 x1 x2 x3 x4)
        (column (degInv (dstOf x1))) (biasRow2 x5) := by
  funext i
  obtain ⟨p, q, rfl⟩ : ∃ (p : Fin 1000000) (q : Fin 2), i = ix2 p q := ⟨i 0, i 1, eq_ix2 i⟩
  rw [val_main_v85_apply, val_main_v82_apply, val_main_v81_apply, val_main_v80_apply, val_main_v79_apply,
    val_main_v84_apply, val_main_v83_apply, weight_inv]
  have e1 : idx_main_v79 (idx_main_v80 (ix2 p q)) = ix1 p := funext fun a => by match a with | ⟨0, _⟩ => rfl
  have e2 : idx_main_v83 (idx_main_v84 (ix2 p q)) = ix1 q := funext fun a => by match a with | ⟨0, _⟩ => rfl
  rw [e1, e2, ← column_apply (degInv (dstOf x1)) p, ← biasRow2_apply x5 q]
  rfl

/-! ## The outlined log-softmax -/

/-- A reduce with a maximum body from minus infinity over the two lanes of row `p` is the row's maximum. -/
theorem reduce_max_row (y : FVec Ideal S1000000x2 .f32) (p : Fin 1000000) :
    Host.reduce FloatOps.maximumf y (constant (F := Ideal) S_ .f32 0xFF800000#32) reducesTo_S1000000x2_S1000000_d1 h_S_ (ix1 p)
      = rowMax y p := by
  rw [Host.reduce_eq_fold_single FloatOps.maximumf y _ reducesTo_S1000000x2_S1000000_d1 (by decide) h_S_]
  unfold rowMax
  refine congrArg (fun f => Finset.fold max negInf f (Finset.univ : Finset (Fin 2))) (funext fun k => congrArg y ?_)
  funext a; apply Fin.ext; fin_cases a <;> rfl

/-- Its row maximum: the reduce from minus infinity, then one more maximum with minus infinity. -/
theorem row_max (p : Fin 1000000) : val_main_call1_v2 (F := Ideal) x0 x1 x2 x3 x4 x5 (ix1 p)
    = rowMax (val_main_v85 (F := Ideal) x0 x1 x2 x3 x4 x5) p := by
  rw [val_main_call1_v2_apply, val_main_call1_v1_apply, val_main_call1_cst_0_apply]
  unfold val_main_call1_v0 val_main_call1_cst
  generalize val_main_v85 (F := Ideal) x0 x1 x2 x3 x4 x5 = y
  exact (congrArg (fun r => max negInf r) (reduce_max_row y p)).trans (max_negInf_left _)

/-- The shifted entry: `y - m` with `m` the row's maximum. -/
theorem shifted (p : Fin 1000000) (q : Fin 2) : val_main_call1_v5 (F := Ideal) x0 x1 x2 x3 x4 x5 (ix2 p q)
    = val_main_v85 (F := Ideal) x0 x1 x2 x3 x4 x5 (ix2 p q) - rowMax (val_main_v85 (F := Ideal) x0 x1 x2 x3 x4 x5) p := by
  rw [val_main_call1_v5_apply, val_main_call1_v4_apply, val_main_call1_v3_apply]
  have e : idx_main_call1_v3 (idx_main_call1_v4 (ix2 p q)) = ix1 p := funext fun a => by match a with | ⟨0, _⟩ => rfl
  rw [e, row_max]
  exact Ideal.subf_def _ _

theorem softmax_rows : val_main_v86 (F := Ideal) x0 x1 x2 x3 x4 x5
    = logSoftmaxRows (val_main_v85 (F := Ideal) x0 x1 x2 x3 x4 x5) := by
  funext i
  obtain ⟨p, q, rfl⟩ : ∃ (p : Fin 1000000) (q : Fin 2), i = ix2 p q := ⟨i 0, i 1, eq_ix2 i⟩
  rw [val_main_v86_apply, val_main_call1_v10_apply, val_main_call1_v9_apply, val_main_call1_v8_apply, val_main_call1_v7_apply,
    val_main_call1_cst_1_apply, shifted, logSoftmaxRows_ix2]
  have e : idx_main_call1_v8 (idx_main_call1_v10 (ix2 p q)) = ix1 p := funext fun a => by match a with | ⟨0, _⟩ => rfl
  rw [e]
  have hs : ∀ k : Fin 2, val_main_call1_v6 (F := Ideal) x0 x1 x2 x3 x4 x5 (idx_main_call1_v7 (ix1 p) k)
      = Ideal.exp (val_main_v85 (F := Ideal) x0 x1 x2 x3 x4 x5 (ix2 p k) - rowMax (val_main_v85 (F := Ideal) x0 x1 x2 x3 x4 x5) p) := by
    intro k
    have ek : idx_main_call1_v7 (ix1 p) k = ix2 p k := funext fun a => by match a with | ⟨0, _⟩ => rfl | ⟨1, _⟩ => rfl
    rw [ek, val_main_call1_v6_apply, shifted]
    exact Ideal.hostUnary_exp_def _
  simp only [hs]
  generalize val_main_v85 (F := Ideal) x0 x1 x2 x3 x4 x5 = y
  rw [Ideal.subf_def, Ideal.hostUnary_log_def, Ideal.ofBits_def, Ideal.ofBits_zero_f32, zero_add]

/-! ## The whole -/

/-- THE REFERENCE'S RESULT, as the generated stages compose it, is the network of its arguments. -/
theorem result : val_main_v86 (F := Ideal) x0 x1 x2 x3 x4 x5 = network x0 x1 x2 x3 x4 x5 := by
  rw [softmax_rows, logits, sum_layer2, product2]
  rfl

end Cert.ReferenceIdeal.Net

end
-- ==== Proof.lean ====
/-
  A TWO-LAYER GRAPH CONVOLUTION, PIPELINED KERNEL AGAINST PLAIN jnp, OVER THE EXTENDED REALS.

  Both programs compute, from node features `X` [1000000, 3], an edge list [2, 16000000] and two layers' weights and
  biases, the network
      H1 = X · W1,   O1 = max((agg(H1) + H1 · dinv) + b1, 0),
      H2 = O1 · W2,  out = log-softmax over each row of (agg(H2) + H2 · dinv) + b2,
  where `agg` gathers each edge's source row, scales it by the edge's weight `deg^(-1/2)(src) · deg^(-1/2)(dst)` and
  scatter-adds it into the destination row, and `dinv = 1 / deg` (Graph.lean, Rowwise.lean).

  The kernel program does the four dense steps — the two products and the two combinations — as pipelined calls over
  125 blocks of 8000 rows, rounding the products' operands to bf16 on the way in, and leaves the gathers and
  scatter-adds to host operations between the calls; the reference does everything with host operations on whole
  arrays. At the ideal values a change of float format is the identity and a product into a zero accumulator is the
  plain sum, so each call's output array, whole, is the same row-wise function of its operand arrays that the reference
  applies (Blocks.lean, Arrays.lean); the host stretches are the same operations on both sides; and the two programs
  add `agg`, `H · dinv` and `b` in the same order, so no law of arithmetic beyond reading the operations is used and the
  inputs' finiteness is never needed. Following the kernel program's buffers from boundary to boundary
  (KernelRun.lean, Boundaries.lean) and the reference's straight line stretch by stretch (RefStages.lean,
  RefNetwork.lean), both results are `network` of the six arguments.

  The three frame claims are the generated frames (the reference's: its run with the result dropped); the idealization
  rewrote nothing, so `preserves` asks nothing.
-/
import proofs.«173813_j50895362457963_2_alg».proof.Defs
import proofs.«173813_j50895362457963_2_alg».proof.Proof.Gen.Kernel
import proofs.«173813_j50895362457963_2_alg».proof.Proof.Gen.Kernel.Skeleton
import proofs.«173813_j50895362457963_2_alg».proof.Proof.Gen.Kernel.Launch
import proofs.«173813_j50895362457963_2_alg».proof.Proof.Gen.Kernel.Points
import proofs.«173813_j50895362457963_2_alg».proof.Proof.Gen.Kernel.Frame
import proofs.«173813_j50895362457963_2_alg».proof.Proof.Gen.KernelIdeal
import proofs.«173813_j50895362457963_2_alg».proof.Proof.Gen.KernelIdeal.Skeleton
import proofs.«173813_j50895362457963_2_alg».proof.Proof.Gen.KernelIdeal.Launch
import proofs.«173813_j50895362457963_2_alg».proof.Proof.Gen.KernelIdeal.Points
import proofs.«173813_j50895362457963_2_alg».proof.Proof.Gen.KernelIdeal.Frame
import proofs.«173813_j50895362457963_2_alg».proof.Proof.Gen.ReferenceIdeal
import proofs.«173813_j50895362457963_2_alg».proof.Proof.Gen.Pre_finite_inputs
import proofs.«173813_j50895362457963_2_alg».proof.Proof.KernelRun
import proofs.«173813_j50895362457963_2_alg».proof.Proof.Boundaries
import proofs.«173813_j50895362457963_2_alg».proof.Proof.RefRun
import proofs.«173813_j50895362457963_2_alg».proof.Proof.RefStages
import proofs.«173813_j50895362457963_2_alg».proof.Proof.RefNetwork
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with `network` of them in their result buffers. -/
theorem algebraic : Cert.algebraic_KernelIdeal_ReferenceIdeal := by
  intro m ρ m' ρ' _ hagree
  refine ⟨fun c => Cert.KernelIdeal.Graph.network (Cert.KernelIdeal.Whole.aX m c) (Cert.KernelIdeal.Whole.aE m c)
    (Cert.KernelIdeal.Whole.aW1 m c) (Cert.KernelIdeal.Whole.aB1 m c) (Cert.KernelIdeal.Whole.aW2 m c)
    (Cert.KernelIdeal.Whole.aB2 m c), ?_, ?_⟩
  · exact (θ_run Cert.KernelIdeal.defs _ _).mono
      (fun r h c => ⟨(h c).1.trans (Cert.KernelIdeal.Whole.W7_result m ρ c), (h c).2⟩)
      (Cert.KernelIdeal.Whole.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Stages.result m' c, Cert.ReferenceIdeal.Net.result]
    obtain ⟨e0, e1, e2, e3, e4, e5⟩ := hagree c
    simp only [Cert.ReferenceIdeal.Stages.aX, Cert.ReferenceIdeal.Stages.aE, Cert.ReferenceIdeal.Stages.aW1,
      Cert.ReferenceIdeal.Stages.aB1, Cert.ReferenceIdeal.Stages.aW2, Cert.ReferenceIdeal.Stages.aB2]
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
